-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S32 .f32) (main_arg6 : FVec F S32x1 .f32) (main_arg7 : FVec F S1 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x1 .f32 := Host.absf main_arg6
  let main_cst_8 : FVec F S_ .f32 := constant S_ .f32 0x7F800000#32
  let main_v25 : FVec F S32x1 .f32 := broadcastInDim S32x1 ![] bcast_S_S32x1 main_cst_8
  let main_v26 : IVec S32x1 1 := cmpf .olt main_v24 main_v25
  let main_c_9 : IVec S_ 1 := constantI S_ 1 1#1
  let main_v27 : IVec S_ 1 := (fun x v => Host.reduce IntOp.andi x v reducesTo_S32x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x64 .f32) (main_arg3 : FVec F S64 .f32) (main_arg4 : FVec F S64x32 .f32) (main_arg5 : FVec F S32 .f32) (main_arg6 : FVec F S32x1 .f32) (main_arg7 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg4
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S10000x128 : Shape := ⟨2, ![10000, 128]⟩
abbrev S10000x64 : Shape := ⟨2, ![10000, 64]⟩
abbrev S1700000x64 : Shape := ⟨2, ![1700000, 64]⟩
abbrev S1x64 : Shape := ⟨2, ![1, 64]⟩
abbrev S100000x32 : Shape := ⟨2, ![100000, 32]⟩
abbrev S10000x32 : Shape := ⟨2, ![10000, 32]⟩
abbrev S1700000x32 : Shape := ⟨2, ![1700000, 32]⟩
abbrev S1x32 : Shape := ⟨2, ![1, 32]⟩
abbrev S1x1 : Shape := ⟨2, ![1, 1]⟩
abbrev S100000x1 : Shape := ⟨2, ![100000, 1]⟩
abbrev S10000x1 : Shape := ⟨2, ![10000, 1]⟩

abbrev nBuf : Space → Nat
  | .hbm => 89
  | .vmem => 26
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S32x1, .f32⟩
  | .hbm, ⟨7, _⟩ => ⟨S1, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S100000, .i32⟩
  | .hbm, ⟨13, _⟩ => ⟨S1700000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000, .f32⟩
  | .hbm, ⟨48, _⟩ => ⟨S100000x64, .f32⟩
  | .hbm, ⟨49, _⟩ => ⟨S_, .i32⟩
  | .hbm, ⟨50, _⟩ => ⟨S1700000, .i32⟩
  | .hbm, ⟨51, _⟩ => ⟨S1700000, .i1⟩
  | .hbm, ⟨52, _⟩ => ⟨S_, .i32⟩
  | .hbm, ⟨53, _⟩ => ⟨S1700000, .i32⟩
  | .hbm, ⟨54, _⟩ => ⟨S1700000, .i32⟩
  | .hbm, ⟨55, _⟩ => ⟨S1700000, .i32⟩
  | .hbm, ⟨56, _⟩ => ⟨S1700000x1, .i32⟩
  | .hbm, ⟨57, _⟩ => ⟨S1700000x64, .f32⟩
  | .hbm, ⟨58, _⟩ => ⟨S1700000x1, .f32⟩
  | .hbm, ⟨59, _⟩ => ⟨S1700000x64, .f32⟩
  | .hbm, ⟨60, _⟩ => ⟨S1700000x64, .f32⟩
  | .hbm, ⟨61, _⟩ => ⟨S_, .f32⟩
  | .hbm, ⟨62, _⟩ => ⟨S100000x64, .f32⟩
  | .hbm, ⟨63, _⟩ => ⟨S1700000x1, .i32⟩
  | .hbm, ⟨64, _⟩ => ⟨S100000x64, .f32⟩
  | .hbm, ⟨65, _⟩ => ⟨S1x64, .f32⟩
  | .hbm, ⟨66, _⟩ => ⟨S100000x64, .f32⟩
  | .hbm, ⟨67, _⟩ => ⟨S100000x32, .f32⟩
  | .hbm, ⟨68, _⟩ => ⟨S_, .i32⟩
  | .hbm, ⟨69, _⟩ => ⟨S1700000, .i32⟩
  | .hbm, ⟨70, _⟩ => ⟨S1700000, .i1⟩
  | .hbm, ⟨71, _⟩ => ⟨S_, .i32⟩
  | .hbm, ⟨72, _⟩ => ⟨S1700000, .i32⟩
  | .hbm, ⟨73, _⟩ => ⟨S1700000, .i32⟩
  | .hbm, ⟨74, _⟩ => ⟨S1700000, .i32⟩
  | .hbm, ⟨75, _⟩ => ⟨S1700000x1, .i32⟩
  | .hbm, ⟨76, _⟩ => ⟨S1700000x32, .f32⟩
  | .hbm, ⟨77, _⟩ => ⟨S1700000x1, .f32⟩
  | .hbm, ⟨78, _⟩ => ⟨S1700000x32, .f32⟩
  | .hbm, ⟨79, _⟩ => ⟨S1700000x32, .f32⟩
  | .hbm, ⟨80, _⟩ => ⟨S_, .f32⟩
  | .hbm, ⟨81, _⟩ => ⟨S100000x32, .f32⟩
  | .hbm, ⟨82, _⟩ => ⟨S1700000x1, .i32⟩
  | .hbm, ⟨83, _⟩ => ⟨S100000x32, .f32⟩
  | .hbm, ⟨84, _⟩ => ⟨S1x32, .f32⟩
  | .hbm, ⟨85, _⟩ => ⟨S100000x32, .f32⟩
  | .hbm, ⟨86, _⟩ => ⟨S1x1, .f32⟩
  | .hbm, ⟨87, _⟩ => ⟨S100000x1, .f32⟩
  | .hbm, ⟨88, _⟩ => ⟨S100000, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S64x32, .f32⟩
  | .local _ .vmem, ⟨13, _⟩ => ⟨S10000x32, .f32⟩
  | .local _ .vmem, ⟨14, _⟩ => ⟨S10000x32, .f32⟩
  | .local _ .vmem, ⟨15, _⟩ => ⟨S10000x32, .f32⟩
  | .local _ .vmem, ⟨16, _⟩ => ⟨S10000x32, .f32⟩
  | .local _ .vmem, ⟨17, _⟩ => ⟨S1x32, .f32⟩
  | .local _ .vmem, ⟨18, _⟩ => ⟨S10000x32, .f32⟩
  | .local _ .vmem, ⟨19, _⟩ => ⟨S10000x32, .f32⟩
  | .local _ .vmem, ⟨20, _⟩ => ⟨S10000x32, .f32⟩
  | .local _ .vmem, ⟨21, _⟩ => ⟨S10000x32, .f32⟩
  | .local _ .vmem, ⟨22, _⟩ => ⟨S32x1, .f32⟩
  | .local _ .vmem, ⟨23, _⟩ => ⟨S1x1, .f32⟩
  | .local _ .vmem, ⟨24, _⟩ => ⟨S10000x1, .f32⟩
  | .local _ .vmem, ⟨25, _⟩ => ⟨S10000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_c_9 : Ref sig .tc := ⟨.hbm, 68, rfl⟩
abbrev main_v47 : Ref sig .tc := ⟨.hbm, 69, rfl⟩
abbrev main_v48 : Ref sig .tc := ⟨.hbm, 70, rfl⟩
abbrev main_c_10 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_11 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg3_0 : Ref sig .tc := ⟨.vmem, 24, rfl⟩
abbrev cc4_stg3_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem3_0 : DmaSem sig := 24
abbrev cc4_sem3_1 : DmaSem sig := 25

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x32 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S32x1 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x1 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S10000x1 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x32_S64x32_0_0 : ∀ a, (![0, 0] : Fin 2 → Nat) a + S64x32.size a ≤ S64x32.size a
  h_S64x32 : 0 < S64x32.numel
  inb_S10000x32_S10000x32_0_0 : ∀ a, (![0, 0] : Fin 2 → Nat) a + S10000x32.size a ≤ S10000x32.size a
  h_S10000x32 : 0 < S10000x32.numel
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  shapeCasts_S32_S1x32 : S32.ShapeCasts S1x32
  shapeCasts_S10000x32_S10000x32 : S10000x32.ShapeCasts S10000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  shapeCasts_S1_S1x1 : S1.ShapeCasts S1x1
  inb_S32x1_S32x1_0_0 : ∀ a, (![0, 0] : Fin 2 → Nat) a + S32x1.size a ≤ S32x1.size a
  h_S32x1 : 0 < S32x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x1 : S1x1.Broadcasts S10000x1
  inb_S10000x1_S10000x1_0_0 : ∀ a, (![0, 0] : Fin 2 → Nat) a + S10000x1.size a ≤ S10000x1.size a
  h_S10000x1 : 0 < S10000x1.numel
  shapeCasts_S100000x1_S100000 : S100000x1.ShapeCasts S100000
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x64_S10000x64_1_0_0_1_n_n_wf : DotDims.WF S10000x128 S128x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x64_S64x32_S10000x32_1_0_0_1_n_n_wf : DotDims.WF S10000x64 S64x32 S10000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  dot_S10000x32_S32x1_S10000x1_1_0_0_1_n_n_wf : DotDims.WF S10000x32 S32x1 S10000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x32.size a ≤ S64x32.size a
  hwx2_1 : ∀ i : grid2.Coords, EltTy.bits .f32 = 32 ∨ (Rect.block (s := S64x32) S64x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x32.size a ≤ S100000x32.size a
  hwx2_2 : ∀ i : grid2.Coords, EltTy.bits .f32 = 32 ∨ (Rect.block (s := S100000x32) S10000x32.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x32.size a ≤ S100000x32.size a
  hwx3_0 : ∀ i : grid3.Coords, EltTy.bits .f32 = 32 ∨ (Rect.block (s := S100000x32) S10000x32.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x32.size a ≤ S1x32.size a
  hwx3_1 : ∀ i : grid3.Coords, EltTy.bits .f32 = 32 ∨ (Rect.block (s := S1x32) S1x32.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x32.size a ≤ S100000x32.size a
  hwx3_2 : ∀ i : grid3.Coords, EltTy.bits .f32 = 32 ∨ (Rect.block (s := S100000x32) S10000x32.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x32.size a ≤ S100000x32.size a
  hwx4_0 : ∀ i : grid4.Coords, EltTy.bits .f32 = 32 ∨ (Rect.block (s := S100000x32) S10000x32.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S32x1.size a ≤ S32x1.size a
  hwx4_1 : ∀ i : grid4.Coords, EltTy.bits .f32 = 32 ∨ (Rect.block (s := S32x1) S32x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x1.size a ≤ S1x1.size a
  hwx4_2 : ∀ i : grid4.Coords, EltTy.bits .f32 = 32 ∨ (Rect.block (s := S1x1) S1x1.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S10000x1.size a ≤ S100000x1.size a
  hwx4_3 : ∀ i : grid4.Coords, EltTy.bits .f32 = 32 ∨ (Rect.block (s := S100000x1) S10000x1.size (cc4_transform_3 i) (hinb4_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf
def dot_S10000x32_S32x1_S10000x1_1_0_0_1_n_n : DotDims S10000x32 S32x1 S10000x1 where
  lhsContracting := [1]
  rhsContracting := [0]
  lhsNonContracting := [0]
  rhsNonContracting := [1]
  lhsBatch := []
  rhsBatch := []
  wf := dot_S10000x32_S32x1_S10000x1_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S10000x32.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S10000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x32.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S10000x32.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v61) S10000x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S32x1.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v62) S1x1.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v63) S10000x1.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩
abbrev S100000x32 : Shape := ⟨2, ![100000, 32]⟩
abbrev S1700000x32 : Shape := ⟨2, ![1700000, 32]⟩
abbrev S1x32 : Shape := ⟨2, ![1, 32]⟩
abbrev S100000x1 : Shape := ⟨2, ![100000, 1]⟩
abbrev S1x1 : Shape := ⟨2, ![1, 1]⟩

abbrev nBuf : Space → Nat
  | .hbm => 135
  | .vmem => 0
  | .smem => 0
  | _ => 0

abbrev hbmTy0_0 (i : Nat) : BufTy := match i % 128 with
  | 0 => ⟨S100000x128, .f32⟩
  | 1 => ⟨S2x1600000, .i32⟩
  | 2 => ⟨S128x64, .f32⟩
  | 3 => ⟨S64, .f32⟩
  | 4 => ⟨S64x32, .f32⟩
  | 5 => ⟨S32, .f32⟩
  | 6 => ⟨S32x1, .f32⟩
  | 7 => ⟨S1, .f32⟩
  | 8 => ⟨S1x1600000, .i32⟩
  | 9 => ⟨S1600000, .i32⟩
  | 10 => ⟨S1x1600000, .i32⟩
  | 11 => ⟨S1600000, .i32⟩
  | 12 => ⟨S100000, .i32⟩
  | 13 => ⟨S1700000, .i32⟩
  | 14 => ⟨S1700000, .i32⟩
  | 15 => ⟨S_, .f32⟩
  | 16 => ⟨S1700000, .f32⟩
  | 17 => ⟨S_, .f32⟩
  | 18 => ⟨S100000, .f32⟩
  | 19 => ⟨S1700000x1, .i32⟩
  | 20 => ⟨S100000, .f32⟩
  | 21 => ⟨S_, .f32⟩
  | 22 => ⟨S100000, .f32⟩
  | 23 => ⟨S100000, .i1⟩
  | 24 => ⟨S100000, .f32⟩
  | 25 => ⟨S_, .f32⟩
  | 26 => ⟨S_, .f32⟩
  | 27 => ⟨S100000, .f32⟩
  | 28 => ⟨S100000, .f32⟩
  | 29 => ⟨S_, .i32⟩
  | 30 => ⟨S1700000, .i32⟩
  | 31 => ⟨S1700000, .i1⟩
  | 32 => ⟨S_, .i32⟩
  | 33 => ⟨S1700000, .i32⟩
  | 34 => ⟨S1700000, .i32⟩
  | 35 => ⟨S1700000, .i32⟩
  | 36 => ⟨S1700000x1, .i32⟩
  | 37 => ⟨S1700000, .f32⟩
  | 38 => ⟨S_, .i32⟩
  | 39 => ⟨S1700000, .i32⟩
  | 40 => ⟨S1700000, .i1⟩
  | 41 => ⟨S_, .i32⟩
  | 42 => ⟨S1700000, .i32⟩
  | 43 => ⟨S1700000, .i32⟩
  | 44 => ⟨S1700000, .i32⟩
  | 45 => ⟨S1700000x1, .i32⟩
  | 46 => ⟨S1700000, .f32⟩
  | 47 => ⟨S1700000, .f32⟩
  | 48 => ⟨S100000x64, .f32⟩
  | 49 => ⟨S_, .i32⟩
  | 50 => ⟨S1700000, .i32⟩
  | 51 => ⟨S1700000, .i1⟩
  | 52 => ⟨S_, .i32⟩
  | 53 => ⟨S1700000, .i32⟩
  | 54 => ⟨S1700000, .i32⟩
  | 55 => ⟨S1700000, .i32⟩
  | 56 => ⟨S1700000x1, .i32⟩
  | 57 => ⟨S1700000x64, .f32⟩
  | 58 => ⟨S1700000x1, .f32⟩
  | 59 => ⟨S1700000x64, .f32⟩
  | 60 => ⟨S1700000x64, .f32⟩
  | 61 => ⟨S_, .f32⟩
  | 62 => ⟨S100000x64, .f32⟩
  | 63 => ⟨S1700000x1, .i32⟩
  | 64 => ⟨S100000x64, .f32⟩
  | 65 => ⟨S1x64, .f32⟩
  | 66 => ⟨S100000x64, .f32⟩
  | 67 => ⟨S100000x64, .f32⟩
  | 68 => ⟨S_, .f32⟩
  | 69 => ⟨S100000x64, .f32⟩
  | 70 => ⟨S100000x64, .f32⟩
  | 71 => ⟨S100000, .i32⟩
  | 72 => ⟨S1700000, .i32⟩
  | 73 => ⟨S1700000, .i32⟩
  | 74 => ⟨S_, .f32⟩
  | 75 => ⟨S1700000, .f32⟩
  | 76 => ⟨S_, .f32⟩
  | 77 => ⟨S100000, .f32⟩
  | 78 => ⟨S1700000x1, .i32⟩
  | 79 => ⟨S100000, .f32⟩
  | 80 => ⟨S_, .f32⟩
  | 81 => ⟨S100000, .f32⟩
  | 82 => ⟨S100000, .i1⟩
  | 83 => ⟨S100000, .f32⟩
  | 84 => ⟨S_, .f32⟩
  | 85 => ⟨S_, .f32⟩
  | 86 => ⟨S100000, .f32⟩
  | 87 => ⟨S100000, .f32⟩
  | 88 => ⟨S_, .i32⟩
  | 89 => ⟨S1700000, .i32⟩
  | 90 => ⟨S1700000, .i1⟩
  | 91 => ⟨S_, .i32⟩
  | 92 => ⟨S1700000, .i32⟩
  | 93 => ⟨S1700000, .i32⟩
  | 94 => ⟨S1700000, .i32⟩
  | 95 => ⟨S1700000x1, .i32⟩
  | 96 => ⟨S1700000, .f32⟩
  | 97 => ⟨S_, .i32⟩
  | 98 => ⟨S1700000, .i32⟩
  | 99 => ⟨S1700000, .i1⟩
  | 100 => ⟨S_, .i32⟩
  | 101 => ⟨S1700000, .i32⟩
  | 102 => ⟨S1700000, .i32⟩
  | 103 => ⟨S1700000, .i32⟩
  | 104 => ⟨S1700000x1, .i32⟩
  | 105 => ⟨S1700000, .f32⟩
  | 106 => ⟨S1700000, .f32⟩
  | 107 => ⟨S100000x32, .f32⟩
  | 108 => ⟨S_, .i32⟩
  | 109 => ⟨S1700000, .i32⟩
  | 110 => ⟨S1700000, .i1⟩
  | 111 => ⟨S_, .i32⟩
  | 112 => ⟨S1700000, .i32⟩
  | 113 => ⟨S1700000, .i32⟩
  | 114 => ⟨S1700000, .i32⟩
  | 115 => ⟨S1700000x1, .i32⟩
  | 116 => ⟨S1700000x32, .f32⟩
  | 117 => ⟨S1700000x1, .f32⟩
  | 118 => ⟨S1700000x32, .f32⟩
  | 119 => ⟨S1700000x32, .f32⟩
  | 120 => ⟨S_, .f32⟩
  | 121 => ⟨S100000x32, .f32⟩
  | 122 => ⟨S1700000x1, .i32⟩
  | 123 => ⟨S100000x32, .f32⟩
  | 124 => ⟨S1x32, .f32⟩
  | 125 => ⟨S100000x32, .f32⟩
  | 126 => ⟨S100000x32, .f32⟩
  | 127 => ⟨S_, .f32⟩
  | _ => ⟨S100000x128, .f32⟩

abbrev hbmTy0_1 (i : Nat) : BufTy := match i % 128 with
  | 0 => ⟨S100000x32, .f32⟩
  | 1 => ⟨S100000x32, .f32⟩
  | 2 => ⟨S100000x1, .f32⟩
  | 3 => ⟨S1x1, .f32⟩
  | 4 => ⟨S100000x1, .f32⟩
  | 5 => ⟨S100000x1, .f32⟩
  | 6 => ⟨S100000, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_9 : Ref sig .tc := ⟨.hbm, 74, rfl⟩
abbrev main_v51 : Ref sig .tc := ⟨.hbm, 75, rfl⟩
abbrev main_cst_10 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_11 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_12 : Ref sig .tc := ⟨.hbm, 84, rfl⟩
abbrev main_call2_v0 : Ref sig .tc := ⟨.hbm, 85, rfl⟩
abbrev main_call2_v1 : Ref sig .tc := ⟨.hbm, 86, rfl⟩
abbrev main_v58 : Ref sig .tc := ⟨.hbm, 87, rfl⟩
abbrev main_c_13 : Ref sig .tc := ⟨.hbm, 88, rfl⟩
abbrev main_v59 : Ref sig .tc := ⟨.hbm, 89, rfl⟩
abbrev main_v60 : Ref sig .tc := ⟨.hbm, 90, rfl⟩
abbrev main_c_14 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_c_15 : Ref sig .tc := ⟨.hbm, 97, rfl⟩
abbrev main_v66 : Ref sig .tc := ⟨.hbm, 98, rfl⟩
abbrev main_v67 : Ref sig .tc := ⟨.hbm, 99, rfl⟩
abbrev main_c_16 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_c_17 : Ref sig .tc := ⟨.hbm, 108, rfl⟩
abbrev main_v75 : Ref sig .tc := ⟨.hbm, 109, rfl⟩
abbrev main_v76 : Ref sig .tc := ⟨.hbm, 110, rfl⟩
abbrev main_c_18 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_cst_19 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_call3_cst : Ref sig .tc := ⟨.hbm, 127, rfl⟩
abbrev main_call3_v0 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x32_S100000x32_1_0_0_1_n_n_wf : DotDims.WF S100000x64 S64x32 S100000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  dot_S100000x32_S32x1_S100000x1_1_0_0_1_n_n_wf : DotDims.WF S100000x32 S32x1 S100000x1 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf
def dot_S100000x32_S32x1_S100000x1_1_0_0_1_n_n : DotDims S100000x32 S32x1 S100000x1 where
  lhsContracting := [1]
  rhsContracting := [0]
  lhsNonContracting := [0]
  rhsNonContracting := [1]
  lhsBatch := []
  rhsBatch := []
  wf := dot_S100000x32_S32x1_S100000x1_1_0_0_1_n_n_wf

class Facts : Prop extends Facts₀ where

variable [Facts]
-- ==== Proof.KRun.lean ====
/-
  The network's program, run from any launch memory: every weakly fair execution ends, nothing faulting, with the
  result array holding what the last segment boundary's contents say it holds (the fold of the host stretches and of the
  five row-blocked regions' write-backs from the launch memory), and with the eight arguments as launched.  This is the
  same run as the one that shows the arguments unchanged, read at one more buffer: the result.
-/
import proofs.«138173_j47605417509207_1_alg».proof.Proof.Gen.KernelIdeal.Frame

set_option maxRecDepth 16384

noncomputable section

namespace Cert.KernelIdeal.Net

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution ends with the result array at the last boundary's contents and the arguments as launched. -/
theorem run_result : θ_run defs (onTc (τ := τ) (main (F := F))) ⟨m, fun _ => 0, ρ⟩ (fun r => ∀ c : Dev nD,
      r.2.mem ((c.tc : Thread nD τ).loc main_v64) = W12 m ρ c (Proc.devRef .tc main_v64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v64 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c)⟩)

end Cert.KernelIdeal.Net

end
-- ==== Proof.Spec.lean ====
/-
  The arithmetic of the graph network's dense stages, as plain functions on extended-real arrays, index by index.

  A node-feature array has one row per node (100000 rows).  A dense stage multiplies every row by a weight matrix
  (`rowsTimes…`: entry (r, j) is the sum over k of x[r, k] · w[k, j]), or adds a bias row to every row and clamps
  below at zero (`biasClamp…`: entry (r, j) is max (a[r, j] + b[0, j]) 0), or does the last product and adds the
  single bias entry (`rowsTimesPlus`).  Sums over a finite index type on the extended reals do not depend on the
  order of summation, so neither a row-block tiling nor a different accumulation order changes these values.
-/
import Idealize.ShloMosaic.PureOps.Ideal
import Idealize.ShloMosaic.Lib.ValueIdx

noncomputable section

namespace Cert.Gcn

open Idealize.ShloMosaic Idealize.ShloMosaic.ValueIdx

/-- A two-axis array of extended reals. -/
abbrev Arr2 (a b : Nat) : Type := FVec Ideal (⟨2, ![a, b]⟩ : Shape) .f32

/-- The clamp's lower bound: the value of the all-zero word. -/
abbrev zeroWord : EReal := Ideal.ofBits .f32 0x00000000#32

/-- Rows of `x` (128 features) times the 128 × 64 weights. -/
def rowsTimes128 (x : Arr2 100000 128) (w : Arr2 128 64) : Arr2 100000 64 :=
  fun i => ∑ k : Fin 128, x (ix2 (i 0) k) * w (ix2 k (i 1))

/-- Rows of `h` (64 features) times the 64 × 32 weights. -/
def rowsTimes64 (h : Arr2 100000 64) (w : Arr2 64 32) : Arr2 100000 32 :=
  fun i => ∑ k : Fin 64, h (ix2 (i 0) k) * w (ix2 k (i 1))

/-- Rows of `h` (32 features) times the 32 × 1 weights, plus the one bias entry. -/
def rowsTimesPlus (h : Arr2 100000 32) (w : Arr2 32 1) (b : Arr2 1 1) : Arr2 100000 1 :=
  fun i => (∑ k : Fin 32, h (ix2 (i 0) k) * w (ix2 k (i 1))) + b (ix2 0 0)

/-- Add the bias row to every row and clamp below at zero (64 features). -/
def biasClamp64 (a : Arr2 100000 64) (b : Arr2 1 64) : Arr2 100000 64 :=
  fun i => max (a i + b (ix2 0 (i 1))) zeroWord

/-- Add the bias row to every row and clamp below at zero (32 features). -/
def biasClamp32 (a : Arr2 100000 32) (b : Arr2 1 32) : Arr2 100000 32 :=
  fun i => max (a i + b (ix2 0 (i 1))) zeroWord

end Cert.Gcn

end
-- ==== Proof.Reg0.lean ====
/-
  The first dense stage: x · W1, computed ten thousand rows at a time.

  Grid point t reads rows 10000·t … 10000·t + 9999 of x and the whole of W1, and writes the same rows of the product.
  Entry (p, q) of the block written is the sum over k of (row p of the block)[k] · W1[k, q]; the formats the operands
  pass through on the way into the product do not change an extended real.  The ten blocks tile the 100000 rows, so
  after the last write-back the whole array is the product, entry by entry.
-/
import proofs.«138173_j47605417509207_1_alg».proof.Proof.Gen.KernelIdeal.Frame
import proofs.«138173_j47605417509207_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.Net

open Cert.KernelIdeal Cert.KernelIdeal.Gen Cert.Gcn

variable (V : (c : Dev nD) → (b : Ref sig .tc) → Buf (Elt Ideal) ((c : Thread nD τ).loc b))

theorem zeros_r0 : (![0, 0] : Fin 2 → Nat) = fun _ => 0 := funext fun a => by fin_cases a <;> rfl

/-- The product's dimensions inside one block: rows of a 10000 × 128 block against the 128 × 64 weights. -/
abbrev D0 : DotDims S10000x128 S128x64 S10000x64 := dot_S10000x128_S128x64_S10000x64_1_0_0_1_n_n

theorem d0_lhs0 (i : S10000x64.Idx) (q : D0.contr.Idx) : (D0.lhsIdx i q 0).val = (i 0).val := by
  unfold DotDims.lhsIdx
  rw [dif_neg (show ¬(0 : Fin S10000x128.rank) ∈ D0.lhsBatch by decide), dif_pos (show (0 : Fin S10000x128.rank) ∈ D0.lhsNonContracting by decide)]
  rfl
theorem d0_lhs1 (i : S10000x64.Idx) (q : D0.contr.Idx) : (D0.lhsIdx i q 1).val = (q ⟨0, by decide⟩).val :=
  D0.lhsIdx_val_of_single rfl i q
theorem d0_rhs0 (i : S10000x64.Idx) (q : D0.contr.Idx) : (D0.rhsIdx i q 0).val = (q ⟨0, by decide⟩).val :=
  D0.rhsIdx_val_of_single rfl i q
theorem d0_rhs1 (i : S10000x64.Idx) (q : D0.contr.Idx) : (D0.rhsIdx i q 1).val = (i 1).val := by
  unfold DotDims.rhsIdx
  rw [dif_neg (show ¬(1 : Fin S128x64.rank) ∈ D0.rhsBatch by decide), dif_pos (show (1 : Fin S128x64.rank) ∈ D0.rhsNonContracting by decide)]
  rfl

/-- Entry (p, q) of what one grid point stores: the sum over k of block[p, k] · weights[k, q]. -/
theorem pay0_apply (x0 : Vec Ideal S10000x128 .f32) (x1 : Vec Ideal S128x64 .f32) (p : Fin 10000) (q : Fin 64) :
    k0_pay1 x0 x1 (ix2 p q) = ∑ k : Fin 128, x0 (ix2 p k) * x1 (ix2 k q) := by
  unfold k0_pay1
  show matmul (F := Ideal) D0 none (truncf (F := Ideal) .bf16 x0 bitsLt_bf16_f32) (truncf (F := Ideal) .bf16 x1 bitsLt_bf16_f32) (constant (F := Ideal) S10000x64 .f32 0x00000000#32) (ix2 p q) = _
  refine (Ideal.matmul_constant_zero_apply D0 none _ _ (ix2 p q)).trans ?_
  rw [← Equiv.sum_comp (contrEquiv1 D0 128 rfl rfl).symm]
  refine Finset.sum_congr rfl fun k _ => ?_
  have hk := contrEquiv1_symm_val D0 128 rfl rfl k
  have el : D0.lhsIdx (ix2 p q) ((contrEquiv1 D0 128 rfl rfl).symm k) = ix2 p k := funext fun a => Fin.ext (by
    match a with
    | ⟨0, _⟩ => exact d0_lhs0 _ _
    | ⟨1, _⟩ => exact (d0_lhs1 _ _).trans hk)
  have er : D0.rhsIdx (ix2 p q) ((contrEquiv1 D0 128 rfl rfl).symm k) = ix2 k q := funext fun a => Fin.ext (by
    match a with
    | ⟨0, _⟩ => exact (d0_rhs0 _ _).trans hk
    | ⟨1, _⟩ => exact d0_rhs1 _ _)
  show x0 (D0.lhsIdx (ix2 p q) ((contrEquiv1 D0 128 rfl rfl).symm k)) * x1 (D0.rhsIdx (ix2 p q) ((contrEquiv1 D0 128 rfl rfl).symm k)) = _
  rw [el, er]

/-- Where each window's block sits at grid point t: the row blocks move with t, the weights stay. -/
theorem idx_r0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Block t of the left operand is rows 10000·t … of the array the region finds. -/
theorem iblk0_0_apply (c : Dev nD) (t : Fin cfg0.N) (y : S10000x128.Idx) (i : S100000x128.Idx)
    (h0 : (i 0).val = t.val * 10000 + (y 0).val) (h1 : (i 1).val = (y 1).val) :
    (iblk0 V c 0 t : Vec Ideal S10000x128 .f32) y = (V c main_arg0 : S100000x128.Idx → Elt Ideal .f32) i := by
  obtain ⟨e0, e1, -⟩ := idx_r0 t
  unfold iblk0
  rw [View.read_apply]
  show (V c main_arg0 : S100000x128.Idx → Elt Ideal .f32) _ = _
  refine congrArg (V c main_arg0 : S100000x128.Idx → Elt Ideal .f32) ?_
  funext a
  apply Fin.ext
  match a with
  | ⟨0, _⟩ => show win0_0.index t 0 * 10000 + 1 * (y 0).val = (i 0).val; rw [e0, h0]; omega
  | ⟨1, _⟩ => show win0_0.index t 1 * 128 + 1 * (y 1).val = (i 1).val; rw [e1, h1]; omega

/-- The weights' block at every grid point is the whole weight array. -/
theorem iblk0_1_apply (c : Dev nD) (t : Fin cfg0.N) (y i : S128x64.Idx)
    (h0 : (i 0).val = (y 0).val) (h1 : (i 1).val = (y 1).val) :
    (iblk0 V c 1 t : Vec Ideal S128x64 .f32) y = (V c main_arg2 : S128x64.Idx → Elt Ideal .f32) i := by
  obtain ⟨-, -, e2, e3, -⟩ := idx_r0 t
  unfold iblk0
  rw [View.read_apply]
  show (V c main_arg2 : S128x64.Idx → Elt Ideal .f32) _ = _
  refine congrArg (V c main_arg2 : S128x64.Idx → Elt Ideal .f32) ?_
  funext a
  apply Fin.ext
  match a with
  | ⟨0, _⟩ => show win0_1.index t 0 * 128 + 1 * (y 0).val = (i 0).val; rw [e2, h0]; omega
  | ⟨1, _⟩ => show win0_1.index t 1 * 64 + 1 * (y 1).val = (i 1).val; rw [e3, h1]; omega

/-- What grid point t writes back is block t of the whole product. -/
theorem flushed_r0 (c : Dev nD) (t : Fin cfg0.N) :
    (dat0 (F := Ideal) V c).flushed 2 t
      = ((cfg0.win 2).blk t).view.read (Elt Ideal) (rowsTimes128 (V c main_arg0) (V c main_arg2)) := by
  show (cfg0.win 2).cut (grid0.coords t) ((dat0 V c).after 2 t) = _
  rw [after0_2]
  unfold out0_2
  rw [View.canon_unit_zero zeros_r0]
  simp only [View.ld_unit_zero (S := S10000x128) zeros_r0, View.ld_unit_zero (S := S128x64) zeros_r0]
  obtain ⟨-, -, -, -, e4, e5⟩ := idx_r0 t
  funext j
  obtain ⟨p, q, rfl⟩ : ∃ (p : Fin 10000) (q : Fin 64), j = ix2 p q := ⟨j 0, j 1, eq_ix2 j⟩
  refine (pay0_apply _ _ p q).trans ?_
  rw [View.read_apply]
  unfold rowsTimes128
  have hr : ((((cfg0.win 2).blk t).view.emb (ix2 p q)) 0).val = t.val * 10000 + p.val := by
    show win0_2.index t 0 * 10000 + 1 * p.val = _; rw [e4]; omega
  have hc : ((((cfg0.win 2).blk t).view.emb (ix2 p q)) 1).val = q.val := by
    show win0_2.index t 1 * 64 + 1 * q.val = _; rw [e5]; omega
  refine Finset.sum_congr rfl fun k _ => ?_
  rw [iblk0_0_apply V c t (ix2 p k) (ix2 ((((cfg0.win 2).blk t).view.emb (ix2 p q)) 0) k) hr rfl,
    iblk0_1_apply V c t (ix2 k q) (ix2 k ((((cfg0.win 2).blk t).view.emb (ix2 p q)) 1)) rfl hc]

/-- An index is in point t's block exactly when each coordinate is in the block's range on its axis. -/
theorem mem_blk_r0 (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v30).slice (win0_2.rect t)).set ↔ _
  rw [View.set_slice_whole, Rect.mem_set_unit]
  exact Iff.rfl

/-- Row r lies in the block of grid point r / 10000: the ten blocks cover the array. -/
theorem cover_r0 (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 10 := N_0
  have ht : (i 0).val / 10000 < cfg0.N := by rw [hN]; omega
  obtain ⟨-, -, -, -, e4, e5⟩ := idx_r0 ⟨(i 0).val / 10000, ht⟩
  refine ⟨⟨(i 0).val / 10000, ht⟩, flush0_2 _, ?_⟩
  rw [mem_blk_r0]
  intro a
  match a with
  | ⟨0, _⟩ =>
    show win0_2.index ⟨(i 0).val / 10000, ht⟩ 0 * 10000 ≤ (i 0).val ∧ (i 0).val < win0_2.index ⟨(i 0).val / 10000, ht⟩ 0 * 10000 + 10000
    rw [e4]; show (i 0).val / 10000 * 10000 ≤ (i 0).val ∧ (i 0).val < (i 0).val / 10000 * 10000 + 10000; omega
  | ⟨1, _⟩ =>
    show win0_2.index ⟨(i 0).val / 10000, ht⟩ 1 * 64 ≤ (i 1).val ∧ (i 1).val < win0_2.index ⟨(i 0).val / 10000, ht⟩ 1 * 64 + 64
    rw [e5]; omega

/-- After the region the output array is the whole product of the arrays the region found. -/
theorem final_r0 (c : Dev nD) :
    (dat0 (F := Ideal) V c).arrAt 2 cfg0.N = rowsTimes128 (V c main_arg0) (V c main_arg2) :=
  (dat0 (F := Ideal) V c).arrAt_eq_of_cover 2 _ (fun t _ => flushed_r0 V c t) cover_r0

end Cert.KernelIdeal.Net

end
-- ==== Proof.Reg1.lean ====
/-
  The first bias-and-clamp stage, computed ten thousand rows at a time.

  Grid point t reads rows 10000·t … 10000·t + 9999 of the aggregated features and the one bias row, and writes the same
  rows of the result: entry (p, q) is max (a[p, q] + bias[0, q]) 0.  The ten blocks tile the 100000 rows, so after the
  last write-back the whole array is that function of the arrays the region found, entry by entry.
-/
import proofs.«138173_j47605417509207_1_alg».proof.Proof.Gen.KernelIdeal.Frame
import proofs.«138173_j47605417509207_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.Net

open Cert.KernelIdeal Cert.KernelIdeal.Gen Cert.Gcn

variable (V : (c : Dev nD) → (b : Ref sig .tc) → Buf (Elt Ideal) ((c : Thread nD τ).loc b))

theorem zeros_r1 : (![0, 0] : Fin 2 → Nat) = fun _ => 0 := funext fun a => by fin_cases a <;> rfl

/-- Entry (p, q) of what one grid point stores: the block's entry plus the bias row's, clamped below at zero. -/
theorem pay1_apply (x0 : Vec Ideal S10000x64 .f32) (x1 : Vec Ideal S1x64 .f32) (p : Fin 10000) (q : Fin 64) :
    k1_pay1 x0 x1 (ix2 p q) = max (x0 (ix2 p q) + x1 (ix2 (0 : Fin 1) q)) zeroWord := by
  unfold k1_pay1
  show max ((shapeCast S10000x64 x0 shapeCasts_S10000x64_S10000x64) (ix2 p q)
      + (broadcastTo S10000x64 (shapeCast S1x64 x1 shapeCasts_S1x64_S1x64) broadcasts_S1x64_S10000x64) (ix2 p q)) zeroWord = _
  rw [shapeCast_self, shapeCast_self, broadcastTo_1b_ab_apply]

/-- Where each window's block sits at grid point t: the row blocks move with t, the bias row stays. -/
theorem idx_r1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Block t of the features is rows 10000·t … of the array the region finds. -/
theorem iblk1_0_apply (c : Dev nD) (t : Fin cfg1.N) (y : S10000x64.Idx) (i : S100000x64.Idx)
    (h0 : (i 0).val = t.val * 10000 + (y 0).val) (h1 : (i 1).val = (y 1).val) :
    (iblk1 V c 0 t : Vec Ideal S10000x64 .f32) y = (V c main_v43 : S100000x64.Idx → Elt Ideal .f32) i := by
  obtain ⟨e0, e1, -⟩ := idx_r1 t
  unfold iblk1
  rw [View.read_apply]
  show (V c main_v43 : S100000x64.Idx → Elt Ideal .f32) _ = _
  refine congrArg (V c main_v43 : S100000x64.Idx → Elt Ideal .f32) ?_
  funext a
  apply Fin.ext
  match a with
  | ⟨0, _⟩ => show win1_0.index t 0 * 10000 + 1 * (y 0).val = (i 0).val; rw [e0, h0]; omega
  | ⟨1, _⟩ => show win1_0.index t 1 * 64 + 1 * (y 1).val = (i 1).val; rw [e1, h1]; omega

/-- The bias row's block at every grid point is the whole one-row array. -/
theorem iblk1_1_apply (c : Dev nD) (t : Fin cfg1.N) (y i : S1x64.Idx)
    (h0 : (i 0).val = (y 0).val) (h1 : (i 1).val = (y 1).val) :
    (iblk1 V c 1 t : Vec Ideal S1x64 .f32) y = (V c main_v44 : S1x64.Idx → Elt Ideal .f32) i := by
  obtain ⟨-, -, e2, e3, -⟩ := idx_r1 t
  unfold iblk1
  rw [View.read_apply]
  show (V c main_v44 : S1x64.Idx → Elt Ideal .f32) _ = _
  refine congrArg (V c main_v44 : S1x64.Idx → Elt Ideal .f32) ?_
  funext a
  apply Fin.ext
  match a with
  | ⟨0, _⟩ => show win1_1.index t 0 * 1 + 1 * (y 0).val = (i 0).val; rw [e2, h0]; omega
  | ⟨1, _⟩ => show win1_1.index t 1 * 64 + 1 * (y 1).val = (i 1).val; rw [e3, h1]; omega

/-- What grid point t writes back is block t of the whole result. -/
theorem flushed_r1 (c : Dev nD) (t : Fin cfg1.N) :
    (dat1 (F := Ideal) V c).flushed 2 t
      = ((cfg1.win 2).blk t).view.read (Elt Ideal) (biasClamp64 (V c main_v43) (V c main_v44)) := by
  show (cfg1.win 2).cut (grid1.coords t) ((dat1 V c).after 2 t) = _
  rw [after1_2]
  unfold out1_2
  rw [View.canon_unit_zero zeros_r1]
  simp only [View.ld_unit_zero (S := S10000x64) zeros_r1, View.ld_unit_zero (S := S1x64) zeros_r1]
  obtain ⟨-, -, -, -, e4, e5⟩ := idx_r1 t
  funext j
  obtain ⟨p, q, rfl⟩ : ∃ (p : Fin 10000) (q : Fin 64), j = ix2 p q := ⟨j 0, j 1, eq_ix2 j⟩
  refine (pay1_apply _ _ p q).trans ?_
  rw [View.read_apply]
  unfold biasClamp64
  have hr : ((((cfg1.win 2).blk t).view.emb (ix2 p q)) 0).val = t.val * 10000 + p.val := by
    show win1_2.index t 0 * 10000 + 1 * p.val = _; rw [e4]; omega
  have hc : ((((cfg1.win 2).blk t).view.emb (ix2 p q)) 1).val = q.val := by
    show win1_2.index t 1 * 64 + 1 * q.val = _; rw [e5]; omega
  rw [iblk1_0_apply V c t (ix2 p q) (((cfg1.win 2).blk t).view.emb (ix2 p q)) hr hc, iblk1_1_apply V c t (ix2 (0 : Fin 1) q) (ix2 (0 : Fin 1) ((((cfg1.win 2).blk t).view.emb (ix2 p q)) 1)) rfl hc]
  rfl

/-- An index is in point t's block exactly when each coordinate is in the block's range on its axis. -/
theorem mem_blk_r1 (t : Fin cfg1.N) (i : S100000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v45).slice (win1_2.rect t)).set ↔ _
  rw [View.set_slice_whole, Rect.mem_set_unit]
  exact Iff.rfl

/-- Row r lies in the block of grid point r / 10000: the ten blocks cover the array. -/
theorem cover_r1 (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  have hN : cfg1.N = 10 := N_1
  have ht : (i 0).val / 10000 < cfg1.N := by rw [hN]; omega
  obtain ⟨-, -, -, -, e4, e5⟩ := idx_r1 ⟨(i 0).val / 10000, ht⟩
  refine ⟨⟨(i 0).val / 10000, ht⟩, flush1_2 _, ?_⟩
  rw [mem_blk_r1]
  intro a
  match a with
  | ⟨0, _⟩ =>
    show win1_2.index ⟨(i 0).val / 10000, ht⟩ 0 * 10000 ≤ (i 0).val ∧ (i 0).val < win1_2.index ⟨(i 0).val / 10000, ht⟩ 0 * 10000 + 10000
    rw [e4]; show (i 0).val / 10000 * 10000 ≤ (i 0).val ∧ (i 0).val < (i 0).val / 10000 * 10000 + 10000; omega
  | ⟨1, _⟩ =>
    show win1_2.index ⟨(i 0).val / 10000, ht⟩ 1 * 64 ≤ (i 1).val ∧ (i 1).val < win1_2.index ⟨(i 0).val / 10000, ht⟩ 1 * 64 + 64
    rw [e5]; omega

/-- After the region the output array is the bias-and-clamp of the arrays the region found. -/
theorem final_r1 (c : Dev nD) :
    (dat1 (F := Ideal) V c).arrAt 2 cfg1.N = biasClamp64 (V c main_v43) (V c main_v44) :=
  (dat1 (F := Ideal) V c).arrAt_eq_of_cover 2 _ (fun t _ => flushed_r1 V c t) cover_r1

end Cert.KernelIdeal.Net

end
-- ==== Proof.Reg2.lean ====
/-
  The second dense stage: h · W2, computed ten thousand rows at a time.

  Grid point t reads rows 10000·t … 10000·t + 9999 of h and the whole of W2, and writes the same rows of the product.
  Entry (p, q) of the block written is the sum over k of (row p of the block)[k] · W2[k, q]; the formats the operands
  pass through on the way into the product do not change an extended real.  The ten blocks tile the 100000 rows, so
  after the last write-back the whole array is the product, entry by entry.
-/
import proofs.«138173_j47605417509207_1_alg».proof.Proof.Gen.KernelIdeal.Frame
import proofs.«138173_j47605417509207_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.Net

open Cert.KernelIdeal Cert.KernelIdeal.Gen Cert.Gcn

variable (V : (c : Dev nD) → (b : Ref sig .tc) → Buf (Elt Ideal) ((c : Thread nD τ).loc b))

theorem zeros_r2 : (![0, 0] : Fin 2 → Nat) = fun _ => 0 := funext fun a => by fin_cases a <;> rfl

/-- The product's dimensions inside one block: rows of a 10000 × 64 block against the 64 × 32 weights. -/
abbrev D2 : DotDims S10000x64 S64x32 S10000x32 := dot_S10000x64_S64x32_S10000x32_1_0_0_1_n_n

theorem d2_lhs0 (i : S10000x32.Idx) (q : D2.contr.Idx) : (D2.lhsIdx i q 0).val = (i 0).val := by
  unfold DotDims.lhsIdx
  rw [dif_neg (show ¬(0 : Fin S10000x64.rank) ∈ D2.lhsBatch by decide), dif_pos (show (0 : Fin S10000x64.rank) ∈ D2.lhsNonContracting by decide)]
  rfl
theorem d2_lhs1 (i : S10000x32.Idx) (q : D2.contr.Idx) : (D2.lhsIdx i q 1).val = (q ⟨0, by decide⟩).val :=
  D2.lhsIdx_val_of_single rfl i q
theorem d2_rhs0 (i : S10000x32.Idx) (q : D2.contr.Idx) : (D2.rhsIdx i q 0).val = (q ⟨0, by decide⟩).val :=
  D2.rhsIdx_val_of_single rfl i q
theorem d2_rhs1 (i : S10000x32.Idx) (q : D2.contr.Idx) : (D2.rhsIdx i q 1).val = (i 1).val := by
  unfold DotDims.rhsIdx
  rw [dif_neg (show ¬(1 : Fin S64x32.rank) ∈ D2.rhsBatch by decide), dif_pos (show (1 : Fin S64x32.rank) ∈ D2.rhsNonContracting by decide)]
  rfl

/-- Entry (p, q) of what one grid point stores: the sum over k of block[p, k] · weights[k, q]. -/
theorem pay2_apply (x0 : Vec Ideal S10000x64 .f32) (x1 : Vec Ideal S64x32 .f32) (p : Fin 10000) (q : Fin 32) :
    k2_pay1 x0 x1 (ix2 p q) = ∑ k : Fin 64, x0 (ix2 p k) * x1 (ix2 k q) := by
  unfold k2_pay1
  show matmul (F := Ideal) D2 none (truncf (F := Ideal) .bf16 (shapeCast S10000x64 x0 shapeCasts_S10000x64_S10000x64) bitsLt_bf16_f32) (truncf (F := Ideal) .bf16 x1 bitsLt_bf16_f32) (constant (F := Ideal) S10000x32 .f32 0x00000000#32) (ix2 p q) = _
  rw [shapeCast_self]
  refine (Ideal.matmul_constant_zero_apply D2 none _ _ (ix2 p q)).trans ?_
  rw [← Equiv.sum_comp (contrEquiv1 D2 64 rfl rfl).symm]
  refine Finset.sum_congr rfl fun k _ => ?_
  have hk := contrEquiv1_symm_val D2 64 rfl rfl k
  have el : D2.lhsIdx (ix2 p q) ((contrEquiv1 D2 64 rfl rfl).symm k) = ix2 p k := funext fun a => Fin.ext (by
    match a with
    | ⟨0, _⟩ => exact d2_lhs0 _ _
    | ⟨1, _⟩ => exact (d2_lhs1 _ _).trans hk)
  have er : D2.rhsIdx (ix2 p q) ((contrEquiv1 D2 64 rfl rfl).symm k) = ix2 k q := funext fun a => Fin.ext (by
    match a with
    | ⟨0, _⟩ => exact (d2_rhs0 _ _).trans hk
    | ⟨1, _⟩ => exact d2_rhs1 _ _)
  show x0 (D2.lhsIdx (ix2 p q) ((contrEquiv1 D2 64 rfl rfl).symm k)) * x1 (D2.rhsIdx (ix2 p q) ((contrEquiv1 D2 64 rfl rfl).symm k)) = _
  rw [el, er]

/-- Where each window's block sits at grid point t: the row blocks move with t, the weights stay. -/
theorem idx_r2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Block t of the left operand is rows 10000·t … of the array the region finds. -/
theorem iblk2_0_apply (c : Dev nD) (t : Fin cfg2.N) (y : S10000x64.Idx) (i : S100000x64.Idx)
    (h0 : (i 0).val = t.val * 10000 + (y 0).val) (h1 : (i 1).val = (y 1).val) :
    (iblk2 V c 0 t : Vec Ideal S10000x64 .f32) y = (V c main_v45 : S100000x64.Idx → Elt Ideal .f32) i := by
  obtain ⟨e0, e1, -⟩ := idx_r2 t
  unfold iblk2
  rw [View.read_apply]
  show (V c main_v45 : S100000x64.Idx → Elt Ideal .f32) _ = _
  refine congrArg (V c main_v45 : S100000x64.Idx → Elt Ideal .f32) ?_
  funext a
  apply Fin.ext
  match a with
  | ⟨0, _⟩ => show win2_0.index t 0 * 10000 + 1 * (y 0).val = (i 0).val; rw [e0, h0]; omega
  | ⟨1, _⟩ => show win2_0.index t 1 * 64 + 1 * (y 1).val = (i 1).val; rw [e1, h1]; omega

/-- The weights' block at every grid point is the whole weight array. -/
theorem iblk2_1_apply (c : Dev nD) (t : Fin cfg2.N) (y i : S64x32.Idx)
    (h0 : (i 0).val = (y 0).val) (h1 : (i 1).val = (y 1).val) :
    (iblk2 V c 1 t : Vec Ideal S64x32 .f32) y = (V c main_arg4 : S64x32.Idx → Elt Ideal .f32) i := by
  obtain ⟨-, -, e2, e3, -⟩ := idx_r2 t
  unfold iblk2
  rw [View.read_apply]
  show (V c main_arg4 : S64x32.Idx → Elt Ideal .f32) _ = _
  refine congrArg (V c main_arg4 : S64x32.Idx → Elt Ideal .f32) ?_
  funext a
  apply Fin.ext
  match a with
  | ⟨0, _⟩ => show win2_1.index t 0 * 64 + 1 * (y 0).val = (i 0).val; rw [e2, h0]; omega
  | ⟨1, _⟩ => show win2_1.index t 1 * 32 + 1 * (y 1).val = (i 1).val; rw [e3, h1]; omega

/-- What grid point t writes back is block t of the whole product. -/
theorem flushed_r2 (c : Dev nD) (t : Fin cfg2.N) :
    (dat2 (F := Ideal) V c).flushed 2 t
      = ((cfg2.win 2).blk t).view.read (Elt Ideal) (rowsTimes64 (V c main_v45) (V c main_arg4)) := by
  show (cfg2.win 2).cut (grid2.coords t) ((dat2 V c).after 2 t) = _
  rw [after2_2]
  unfold out2_2
  rw [View.canon_unit_zero zeros_r2]
  simp only [View.ld_unit_zero (S := S10000x64) zeros_r2, View.ld_unit_zero (S := S64x32) zeros_r2]
  obtain ⟨-, -, -, -, e4, e5⟩ := idx_r2 t
  funext j
  obtain ⟨p, q, rfl⟩ : ∃ (p : Fin 10000) (q : Fin 32), j = ix2 p q := ⟨j 0, j 1, eq_ix2 j⟩
  refine (pay2_apply _ _ p q).trans ?_
  rw [View.read_apply]
  unfold rowsTimes64
  have hr : ((((cfg2.win 2).blk t).view.emb (ix2 p q)) 0).val = t.val * 10000 + p.val := by
    show win2_2.index t 0 * 10000 + 1 * p.val = _; rw [e4]; omega
  have hc : ((((cfg2.win 2).blk t).view.emb (ix2 p q)) 1).val = q.val := by
    show win2_2.index t 1 * 32 + 1 * q.val = _; rw [e5]; omega
  refine Finset.sum_congr rfl fun k _ => ?_
  rw [iblk2_0_apply V c t (ix2 p k) (ix2 ((((cfg2.win 2).blk t).view.emb (ix2 p q)) 0) k) hr rfl,
    iblk2_1_apply V c t (ix2 k q) (ix2 k ((((cfg2.win 2).blk t).view.emb (ix2 p q)) 1)) rfl hc]

/-- An index is in point t's block exactly when each coordinate is in the block's range on its axis. -/
theorem mem_blk_r2 (t : Fin cfg2.N) (i : S100000x32.Idx) :
    i ∈ ((cfg2.win 2).blk t).view.set ↔ ∀ a : Fin 2, win2_2.index t a * S10000x32.size a ≤ (i a).val ∧ (i a).val < win2_2.index t a * S10000x32.size a + S10000x32.size a := by
  show i ∈ ((View.whole main_v46).slice (win2_2.rect t)).set ↔ _
  rw [View.set_slice_whole, Rect.mem_set_unit]
  exact Iff.rfl

/-- Row r lies in the block of grid point r / 10000: the ten blocks cover the array. -/
theorem cover_r2 (i : S100000x32.Idx) :
    ∃ t : Fin cfg2.N, (cfg2.win 2).flush t = true ∧ i ∈ ((cfg2.win 2).blk t).view.set := by
  have hi0 : (i 0).val < 100000 := (i 0).isLt
  have hi1 : (i 1).val < 32 := (i 1).isLt
  have hN : cfg2.N = 10 := N_2
  have ht : (i 0).val / 10000 < cfg2.N := by rw [hN]; omega
  obtain ⟨-, -, -, -, e4, e5⟩ := idx_r2 ⟨(i 0).val / 10000, ht⟩
  refine ⟨⟨(i 0).val / 10000, ht⟩, flush2_2 _, ?_⟩
  rw [mem_blk_r2]
  intro a
  match a with
  | ⟨0, _⟩ =>
    show win2_2.index ⟨(i 0).val / 10000, ht⟩ 0 * 10000 ≤ (i 0).val ∧ (i 0).val < win2_2.index ⟨(i 0).val / 10000, ht⟩ 0 * 10000 + 10000
    rw [e4]; show (i 0).val / 10000 * 10000 ≤ (i 0).val ∧ (i 0).val < (i 0).val / 10000 * 10000 + 10000; omega
  | ⟨1, _⟩ =>
    show win2_2.index ⟨(i 0).val / 10000, ht⟩ 1 * 32 ≤ (i 1).val ∧ (i 1).val < win2_2.index ⟨(i 0).val / 10000, ht⟩ 1 * 32 + 32
    rw [e5]; omega

/-- After the region the output array is the whole product of the arrays the region found. -/
theorem final_r2 (c : Dev nD) :
    (dat2 (F := Ideal) V c).arrAt 2 cfg2.N = rowsTimes64 (V c main_v45) (V c main_arg4) :=
  (dat2 (F := Ideal) V c).arrAt_eq_of_cover 2 _ (fun t _ => flushed_r2 V c t) cover_r2

end Cert.KernelIdeal.Net

end
-- ==== Proof.Reg3.lean ====
/-
  The second bias-and-clamp stage, computed ten thousand rows at a time.

  Grid point t reads rows 10000·t … 10000·t + 9999 of the aggregated features and the one bias row, and writes the same
  rows of the result: entry (p, q) is max (a[p, q] + bias[0, q]) 0.  The ten blocks tile the 100000 rows, so after the
  last write-back the whole array is that function of the arrays the region found, entry by entry.
-/
import proofs.«138173_j47605417509207_1_alg».proof.Proof.Gen.KernelIdeal.Frame
import proofs.«138173_j47605417509207_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.Net

open Cert.KernelIdeal Cert.KernelIdeal.Gen Cert.Gcn

variable (V : (c : Dev nD) → (b : Ref sig .tc) → Buf (Elt Ideal) ((c : Thread nD τ).loc b))

theorem zeros_r3 : (![0, 0] : Fin 2 → Nat) = fun _ => 0 := funext fun a => by fin_cases a <;> rfl

/-- Entry (p, q) of what one grid point stores: the block's entry plus the bias row's, clamped below at zero. -/
theorem pay3_apply (x0 : Vec Ideal S10000x32 .f32) (x1 : Vec Ideal S1x32 .f32) (p : Fin 10000) (q : Fin 32) :
    k3_pay1 x0 x1 (ix2 p q) = max (x0 (ix2 p q) + x1 (ix2 (0 : Fin 1) q)) zeroWord := by
  unfold k3_pay1
  show max ((shapeCast S10000x32 x0 shapeCasts_S10000x32_S10000x32) (ix2 p q)
      + (broadcastTo S10000x32 (shapeCast S1x32 x1 shapeCasts_S1x32_S1x32) broadcasts_S1x32_S10000x32) (ix2 p q)) zeroWord = _
  rw [shapeCast_self, shapeCast_self, broadcastTo_1b_ab_apply]

/-- Where each window's block sits at grid point t: the row blocks move with t, the bias row stays. -/
theorem idx_r3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Block t of the features is rows 10000·t … of the array the region finds. -/
theorem iblk3_0_apply (c : Dev nD) (t : Fin cfg3.N) (y : S10000x32.Idx) (i : S100000x32.Idx)
    (h0 : (i 0).val = t.val * 10000 + (y 0).val) (h1 : (i 1).val = (y 1).val) :
    (iblk3 V c 0 t : Vec Ideal S10000x32 .f32) y = (V c main_v59 : S100000x32.Idx → Elt Ideal .f32) i := by
  obtain ⟨e0, e1, -⟩ := idx_r3 t
  unfold iblk3
  rw [View.read_apply]
  show (V c main_v59 : S100000x32.Idx → Elt Ideal .f32) _ = _
  refine congrArg (V c main_v59 : S100000x32.Idx → Elt Ideal .f32) ?_
  funext a
  apply Fin.ext
  match a with
  | ⟨0, _⟩ => show win3_0.index t 0 * 10000 + 1 * (y 0).val = (i 0).val; rw [e0, h0]; omega
  | ⟨1, _⟩ => show win3_0.index t 1 * 32 + 1 * (y 1).val = (i 1).val; rw [e1, h1]; omega

/-- The bias row's block at every grid point is the whole one-row array. -/
theorem iblk3_1_apply (c : Dev nD) (t : Fin cfg3.N) (y i : S1x32.Idx)
    (h0 : (i 0).val = (y 0).val) (h1 : (i 1).val = (y 1).val) :
    (iblk3 V c 1 t : Vec Ideal S1x32 .f32) y = (V c main_v60 : S1x32.Idx → Elt Ideal .f32) i := by
  obtain ⟨-, -, e2, e3, -⟩ := idx_r3 t
  unfold iblk3
  rw [View.read_apply]
  show (V c main_v60 : S1x32.Idx → Elt Ideal .f32) _ = _
  refine congrArg (V c main_v60 : S1x32.Idx → Elt Ideal .f32) ?_
  funext a
  apply Fin.ext
  match a with
  | ⟨0, _⟩ => show win3_1.index t 0 * 1 + 1 * (y 0).val = (i 0).val; rw [e2, h0]; omega
  | ⟨1, _⟩ => show win3_1.index t 1 * 32 + 1 * (y 1).val = (i 1).val; rw [e3, h1]; omega

/-- What grid point t writes back is block t of the whole result. -/
theorem flushed_r3 (c : Dev nD) (t : Fin cfg3.N) :
    (dat3 (F := Ideal) V c).flushed 2 t
      = ((cfg3.win 2).blk t).view.read (Elt Ideal) (biasClamp32 (V c main_v59) (V c main_v60)) := by
  show (cfg3.win 2).cut (grid3.coords t) ((dat3 V c).after 2 t) = _
  rw [after3_2]
  unfold out3_2
  rw [View.canon_unit_zero zeros_r3]
  simp only [View.ld_unit_zero (S := S10000x32) zeros_r3, View.ld_unit_zero (S := S1x32) zeros_r3]
  obtain ⟨-, -, -, -, e4, e5⟩ := idx_r3 t
  funext j
  obtain ⟨p, q, rfl⟩ : ∃ (p : Fin 10000) (q : Fin 32), j = ix2 p q := ⟨j 0, j 1, eq_ix2 j⟩
  refine (pay3_apply _ _ p q).trans ?_
  rw [View.read_apply]
  unfold biasClamp32
  have hr : ((((cfg3.win 2).blk t).view.emb (ix2 p q)) 0).val = t.val * 10000 + p.val := by
    show win3_2.index t 0 * 10000 + 1 * p.val = _; rw [e4]; omega
  have hc : ((((cfg3.win 2).blk t).view.emb (ix2 p q)) 1).val = q.val := by
    show win3_2.index t 1 * 32 + 1 * q.val = _; rw [e5]; omega
  rw [iblk3_0_apply V c t (ix2 p q) (((cfg3.win 2).blk t).view.emb (ix2 p q)) hr hc, iblk3_1_apply V c t (ix2 (0 : Fin 1) q) (ix2 (0 : Fin 1) ((((cfg3.win 2).blk t).view.emb (ix2 p q)) 1)) rfl hc]
  rfl

/-- An index is in point t's block exactly when each coordinate is in the block's range on its axis. -/
theorem mem_blk_r3 (t : Fin cfg3.N) (i : S100000x32.Idx) :
    i ∈ ((cfg3.win 2).blk t).view.set ↔ ∀ a : Fin 2, win3_2.index t a * S10000x32.size a ≤ (i a).val ∧ (i a).val < win3_2.index t a * S10000x32.size a + S10000x32.size a := by
  show i ∈ ((View.whole main_v61).slice (win3_2.rect t)).set ↔ _
  rw [View.set_slice_whole, Rect.mem_set_unit]
  exact Iff.rfl

/-- Row r lies in the block of grid point r / 10000: the ten blocks cover the array. -/
theorem cover_r3 (i : S100000x32.Idx) :
    ∃ t : Fin cfg3.N, (cfg3.win 2).flush t = true ∧ i ∈ ((cfg3.win 2).blk t).view.set := by
  have hi0 : (i 0).val < 100000 := (i 0).isLt
  have hi1 : (i 1).val < 32 := (i 1).isLt
  have hN : cfg3.N = 10 := N_3
  have ht : (i 0).val / 10000 < cfg3.N := by rw [hN]; omega
  obtain ⟨-, -, -, -, e4, e5⟩ := idx_r3 ⟨(i 0).val / 10000, ht⟩
  refine ⟨⟨(i 0).val / 10000, ht⟩, flush3_2 _, ?_⟩
  rw [mem_blk_r3]
  intro a
  match a with
  | ⟨0, _⟩ =>
    show win3_2.index ⟨(i 0).val / 10000, ht⟩ 0 * 10000 ≤ (i 0).val ∧ (i 0).val < win3_2.index ⟨(i 0).val / 10000, ht⟩ 0 * 10000 + 10000
    rw [e4]; show (i 0).val / 10000 * 10000 ≤ (i 0).val ∧ (i 0).val < (i 0).val / 10000 * 10000 + 10000; omega
  | ⟨1, _⟩ =>
    show win3_2.index ⟨(i 0).val / 10000, ht⟩ 1 * 32 ≤ (i 1).val ∧ (i 1).val < win3_2.index ⟨(i 0).val / 10000, ht⟩ 1 * 32 + 32
    rw [e5]; omega

/-- After the region the output array is the bias-and-clamp of the arrays the region found. -/
theorem final_r3 (c : Dev nD) :
    (dat3 (F := Ideal) V c).arrAt 2 cfg3.N = biasClamp32 (V c main_v59) (V c main_v60) :=
  (dat3 (F := Ideal) V c).arrAt_eq_of_cover 2 _ (fun t _ => flushed_r3 V c t) cover_r3

end Cert.KernelIdeal.Net

end
-- ==== Proof.Reg4.lean ====
/-
  The last dense stage: h · Wfc plus the one bias entry, computed ten thousand rows at a time.

  Grid point t reads rows 10000·t … 10000·t + 9999 of h, the whole 32 × 1 weight column and the 1 × 1 bias, and writes
  the same rows of the one-column result: entry (p, 0) is the sum over k of (row p of the block)[k] · Wfc[k, 0], plus the
  bias entry.  The ten blocks tile the 100000 rows, so after the last write-back the whole column is that function of
  the arrays the region found.
-/
import proofs.«138173_j47605417509207_1_alg».proof.Proof.Gen.KernelIdeal.Frame
import proofs.«138173_j47605417509207_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.Net

open Cert.KernelIdeal Cert.KernelIdeal.Gen Cert.Gcn

variable (V : (c : Dev nD) → (b : Ref sig .tc) → Buf (Elt Ideal) ((c : Thread nD τ).loc b))

theorem zeros_r4 : (![0, 0] : Fin 2 → Nat) = fun _ => 0 := funext fun a => by fin_cases a <;> rfl

/-- The product's dimensions inside one block: rows of a 10000 × 32 block against the 32 × 1 weights. -/
abbrev D4 : DotDims S10000x32 S32x1 S10000x1 := dot_S10000x32_S32x1_S10000x1_1_0_0_1_n_n

theorem d4_lhs0 (i : S10000x1.Idx) (q : D4.contr.Idx) : (D4.lhsIdx i q 0).val = (i 0).val := by
  unfold DotDims.lhsIdx
  rw [dif_neg (show ¬(0 : Fin S10000x32.rank) ∈ D4.lhsBatch by decide), dif_pos (show (0 : Fin S10000x32.rank) ∈ D4.lhsNonContracting by decide)]
  rfl
theorem d4_lhs1 (i : S10000x1.Idx) (q : D4.contr.Idx) : (D4.lhsIdx i q 1).val = (q ⟨0, by decide⟩).val :=
  D4.lhsIdx_val_of_single rfl i q
theorem d4_rhs0 (i : S10000x1.Idx) (q : D4.contr.Idx) : (D4.rhsIdx i q 0).val = (q ⟨0, by decide⟩).val :=
  D4.rhsIdx_val_of_single rfl i q
theorem d4_rhs1 (i : S10000x1.Idx) (q : D4.contr.Idx) : (D4.rhsIdx i q 1).val = (i 1).val := by
  unfold DotDims.rhsIdx
  rw [dif_neg (show ¬(1 : Fin S32x1.rank) ∈ D4.rhsBatch by decide), dif_pos (show (1 : Fin S32x1.rank) ∈ D4.rhsNonContracting by decide)]
  rfl

/-- Entry (p, q) of what one grid point stores: the sum over k of block[p, k] · weights[k, q], plus the bias entry. -/
theorem pay4_apply (x0 : Vec Ideal S10000x32 .f32) (x1 : Vec Ideal S32x1 .f32) (x2 : Vec Ideal S1x1 .f32) (p : Fin 10000) (q : Fin 1) :
    k4_pay1 x0 x1 x2 (ix2 p q) = (∑ k : Fin 32, x0 (ix2 p k) * x1 (ix2 k q)) + x2 (ix2 (0 : Fin 1) q) := by
  unfold k4_pay1
  show matmul (F := Ideal) D4 none (truncf (F := Ideal) .bf16 (shapeCast S10000x32 x0 shapeCasts_S10000x32_S10000x32) bitsLt_bf16_f32) (truncf (F := Ideal) .bf16 x1 bitsLt_bf16_f32) (constant (F := Ideal) S10000x1 .f32 0x00000000#32) (ix2 p q)
      + (broadcastTo S10000x1 (shapeCast S1x1 x2 shapeCasts_S1x1_S1x1) broadcasts_S1x1_S10000x1) (ix2 p q) = _
  rw [shapeCast_self, shapeCast_self, broadcastTo_1b_ab_apply]
  refine congrArg (fun z : EReal => z + x2 (ix2 (0 : Fin 1) q)) ?_
  refine (Ideal.matmul_constant_zero_apply D4 none _ _ (ix2 p q)).trans ?_
  rw [← Equiv.sum_comp (contrEquiv1 D4 32 rfl rfl).symm]
  refine Finset.sum_congr rfl fun k _ => ?_
  have hk := contrEquiv1_symm_val D4 32 rfl rfl k
  have el : D4.lhsIdx (ix2 p q) ((contrEquiv1 D4 32 rfl rfl).symm k) = ix2 p k := funext fun a => Fin.ext (by
    match a with
    | ⟨0, _⟩ => exact d4_lhs0 _ _
    | ⟨1, _⟩ => exact (d4_lhs1 _ _).trans hk)
  have er : D4.rhsIdx (ix2 p q) ((contrEquiv1 D4 32 rfl rfl).symm k) = ix2 k q := funext fun a => Fin.ext (by
    match a with
    | ⟨0, _⟩ => exact (d4_rhs0 _ _).trans hk
    | ⟨1, _⟩ => exact d4_rhs1 _ _)
  show x0 (D4.lhsIdx (ix2 p q) ((contrEquiv1 D4 32 rfl rfl).symm k)) * x1 (D4.rhsIdx (ix2 p q) ((contrEquiv1 D4 32 rfl rfl).symm k)) = _
  rw [el, er]

/-- Where each window's block sits at grid point t: the row blocks move with t, the weights and the bias stay. -/
theorem idx_r4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- Block t of the left operand is rows 10000·t … of the array the region finds. -/
theorem iblk4_0_apply (c : Dev nD) (t : Fin cfg4.N) (y : S10000x32.Idx) (i : S100000x32.Idx)
    (h0 : (i 0).val = t.val * 10000 + (y 0).val) (h1 : (i 1).val = (y 1).val) :
    (iblk4 V c 0 t : Vec Ideal S10000x32 .f32) y = (V c main_v61 : S100000x32.Idx → Elt Ideal .f32) i := by
  obtain ⟨e0, e1, -⟩ := idx_r4 t
  unfold iblk4
  rw [View.read_apply]
  show (V c main_v61 : S100000x32.Idx → Elt Ideal .f32) _ = _
  refine congrArg (V c main_v61 : S100000x32.Idx → Elt Ideal .f32) ?_
  funext a
  apply Fin.ext
  match a with
  | ⟨0, _⟩ => show win4_0.index t 0 * 10000 + 1 * (y 0).val = (i 0).val; rw [e0, h0]; omega
  | ⟨1, _⟩ => show win4_0.index t 1 * 32 + 1 * (y 1).val = (i 1).val; rw [e1, h1]; omega

/-- The weights' block at every grid point is the whole weight column. -/
theorem iblk4_1_apply (c : Dev nD) (t : Fin cfg4.N) (y i : S32x1.Idx)
    (h0 : (i 0).val = (y 0).val) (h1 : (i 1).val = (y 1).val) :
    (iblk4 V c 1 t : Vec Ideal S32x1 .f32) y = (V c main_arg6 : S32x1.Idx → Elt Ideal .f32) i := by
  obtain ⟨-, -, e2, e3, -⟩ := idx_r4 t
  unfold iblk4
  rw [View.read_apply]
  show (V c main_arg6 : S32x1.Idx → Elt Ideal .f32) _ = _
  refine congrArg (V c main_arg6 : S32x1.Idx → Elt Ideal .f32) ?_
  funext a
  apply Fin.ext
  match a with
  | ⟨0, _⟩ => show win4_1.index t 0 * 32 + 1 * (y 0).val = (i 0).val; rw [e2, h0]; omega
  | ⟨1, _⟩ => show win4_1.index t 1 * 1 + 1 * (y 1).val = (i 1).val; rw [e3, h1]; omega

/-- The bias block at every grid point is the whole 1 × 1 array. -/
theorem iblk4_2_apply (c : Dev nD) (t : Fin cfg4.N) (y : S1x1.Idx) :
    (iblk4 V c 2 t : Vec Ideal S1x1 .f32) y = (V c main_v62 : S1x1.Idx → Elt Ideal .f32) y := by
  obtain ⟨-, -, -, -, e4, e5, -⟩ := idx_r4 t
  unfold iblk4
  rw [View.read_apply]
  show (V c main_v62 : S1x1.Idx → Elt Ideal .f32) _ = _
  refine congrArg (V c main_v62 : S1x1.Idx → Elt Ideal .f32) ?_
  funext a
  apply Fin.ext
  match a with
  | ⟨0, _⟩ => show win4_2.index t 0 * 1 + 1 * (y 0).val = (y 0).val; rw [e4]; omega
  | ⟨1, _⟩ => show win4_2.index t 1 * 1 + 1 * (y 1).val = (y 1).val; rw [e5]; omega

/-- What grid point t writes back is block t of the whole result. -/
theorem flushed_r4 (c : Dev nD) (t : Fin cfg4.N) :
    (dat4 (F := Ideal) V c).flushed 3 t
      = ((cfg4.win 3).blk t).view.read (Elt Ideal) (rowsTimesPlus (V c main_v61) (V c main_arg6) (V c main_v62)) := by
  show (cfg4.win 3).cut (grid4.coords t) ((dat4 V c).after 3 t) = _
  rw [after4_3]
  unfold out4_3
  rw [View.canon_unit_zero zeros_r4]
  simp only [View.ld_unit_zero (S := S10000x32) zeros_r4, View.ld_unit_zero (S := S32x1) zeros_r4, View.ld_unit_zero (S := S1x1) zeros_r4]
  obtain ⟨-, -, -, -, -, -, e6, e7⟩ := idx_r4 t
  funext j
  obtain ⟨p, q, rfl⟩ : ∃ (p : Fin 10000) (q : Fin 1), j = ix2 p q := ⟨j 0, j 1, eq_ix2 j⟩
  refine (pay4_apply _ _ _ p q).trans ?_
  rw [View.read_apply]
  unfold rowsTimesPlus
  have hr : ((((cfg4.win 3).blk t).view.emb (ix2 p q)) 0).val = t.val * 10000 + p.val := by
    show win4_3.index t 0 * 10000 + 1 * p.val = _; rw [e6]; omega
  have hc : ((((cfg4.win 3).blk t).view.emb (ix2 p q)) 1).val = q.val := by
    show win4_3.index t 1 * 1 + 1 * q.val = _; rw [e7]; omega
  have hq : q = 0 := Fin.ext (by omega)
  subst hq
  rw [iblk4_2_apply V c t (ix2 (0 : Fin 1) (0 : Fin 1))]
  refine congrArg (fun z : EReal => z + (V c main_v62 : S1x1.Idx → Elt Ideal .f32) (ix2 (0 : Fin 1) (0 : Fin 1))) ?_
  refine Finset.sum_congr rfl fun k _ => ?_
  rw [iblk4_0_apply V c t (ix2 p k) (ix2 ((((cfg4.win 3).blk t).view.emb (ix2 p (0 : Fin 1))) 0) k) hr rfl,
    iblk4_1_apply V c t (ix2 k (0 : Fin 1)) (ix2 k ((((cfg4.win 3).blk t).view.emb (ix2 p (0 : Fin 1))) 1)) rfl hc]

/-- An index is in point t's block exactly when each coordinate is in the block's range on its axis. -/
theorem mem_blk_r4 (t : Fin cfg4.N) (i : S100000x1.Idx) :
    i ∈ ((cfg4.win 3).blk t).view.set ↔ ∀ a : Fin 2, win4_3.index t a * S10000x1.size a ≤ (i a).val ∧ (i a).val < win4_3.index t a * S10000x1.size a + S10000x1.size a := by
  show i ∈ ((View.whole main_v63).slice (win4_3.rect t)).set ↔ _
  rw [View.set_slice_whole, Rect.mem_set_unit]
  exact Iff.rfl

/-- Row r lies in the block of grid point r / 10000: the ten blocks cover the array. -/
theorem cover_r4 (i : S100000x1.Idx) :
    ∃ t : Fin cfg4.N, (cfg4.win 3).flush t = true ∧ i ∈ ((cfg4.win 3).blk t).view.set := by
  have hi0 : (i 0).val < 100000 := (i 0).isLt
  have hi1 : (i 1).val < 1 := (i 1).isLt
  have hN : cfg4.N = 10 := N_4
  have ht : (i 0).val / 10000 < cfg4.N := by rw [hN]; omega
  obtain ⟨-, -, -, -, -, -, e6, e7⟩ := idx_r4 ⟨(i 0).val / 10000, ht⟩
  refine ⟨⟨(i 0).val / 10000, ht⟩, flush4_3 _, ?_⟩
  rw [mem_blk_r4]
  intro a
  match a with
  | ⟨0, _⟩ =>
    show win4_3.index ⟨(i 0).val / 10000, ht⟩ 0 * 10000 ≤ (i 0).val ∧ (i 0).val < win4_3.index ⟨(i 0).val / 10000, ht⟩ 0 * 10000 + 10000
    rw [e6]; show (i 0).val / 10000 * 10000 ≤ (i 0).val ∧ (i 0).val < (i 0).val / 10000 * 10000 + 10000; omega
  | ⟨1, _⟩ =>
    show win4_3.index ⟨(i 0).val / 10000, ht⟩ 1 * 1 ≤ (i 1).val ∧ (i 1).val < win4_3.index ⟨(i 0).val / 10000, ht⟩ 1 * 1 + 1
    rw [e7]; omega

/-- After the region the output column is the product plus the bias entry, of the arrays the region found. -/
theorem final_r4 (c : Dev nD) :
    (dat4 (F := Ideal) V c).arrAt 3 cfg4.N = rowsTimesPlus (V c main_v61) (V c main_arg6) (V c main_v62) :=
  (dat4 (F := Ideal) V c).arrAt_eq_of_cover 3 _ (fun t _ => flushed_r4 V c t) cover_r4

end Cert.KernelIdeal.Net

end
-- ==== Proof.KChain.lean ====
/-
  The contents of the buffers the dense stages and the aggregation steps read, at each boundary between a host stretch
  and a row-blocked region.  A region leaves in its output array the stage's function of the arrays it found at entry,
  and leaves every buffer that is not one of its arrays as it was.
-/
import proofs.«138173_j47605417509207_1_alg».proof.Proof.Gen.KernelIdeal.Frame
import proofs.«138173_j47605417509207_1_alg».proof.Proof.Reg0
import proofs.«138173_j47605417509207_1_alg».proof.Proof.Reg1
import proofs.«138173_j47605417509207_1_alg».proof.Proof.Reg2
import proofs.«138173_j47605417509207_1_alg».proof.Proof.Reg3
import proofs.«138173_j47605417509207_1_alg».proof.Proof.Reg4

noncomputable section

open Idealize.ShloMosaic Idealize.ShloMosaic.TcCoe Idealize.SL.Sem

namespace Cert.KernelIdeal.Net

open Cert.KernelIdeal Cert.KernelIdeal.Gen Cert.Gcn

variable (m : (ℓ : Loc nD τ sig) → Buf (Elt Ideal) ℓ) (ρ : Dev nD → PrngReg) (c : Dev nD)

/-! ## After the last region: the output column -/

theorem out4 : W11 m ρ c (Proc.devRef .tc main_v63)
    = rowsTimesPlus (W10 m ρ c (Proc.devRef .tc main_v61)) (W10 m ρ c (Proc.devRef .tc main_arg6)) (W10 m ρ c (Proc.devRef .tc main_v62)) :=
  (W11_arr m ρ c 3).trans (final_r4 (V10 m ρ) c)

/-! ## After the second bias-and-clamp -/

theorem out3 : W9 m ρ c (Proc.devRef .tc main_v61)
    = biasClamp32 (W8 m ρ c (Proc.devRef .tc main_v59)) (W8 m ρ c (Proc.devRef .tc main_v60)) :=
  (W9_arr m ρ c 2).trans (final_r3 (V8 m ρ) c)
theorem keep3_arg6 : W9 m ρ c (Proc.devRef .tc main_arg6) = W8 m ρ c (Proc.devRef .tc main_arg6) := W9_of_ne m ρ c main_arg6 (by decide)
theorem keep3_arg7 : W9 m ρ c (Proc.devRef .tc main_arg7) = W8 m ρ c (Proc.devRef .tc main_arg7) := W9_of_ne m ρ c main_arg7 (by decide)

/-! ## After the second product -/

theorem out2 : W7 m ρ c (Proc.devRef .tc main_v46)
    = rowsTimes64 (W6 m ρ c (Proc.devRef .tc main_v45)) (W6 m ρ c (Proc.devRef .tc main_arg4)) :=
  (W7_arr m ρ c 2).trans (final_r2 (V6 m ρ) c)
theorem keep2_v5 : W7 m ρ c (Proc.devRef .tc main_v5) = W6 m ρ c (Proc.devRef .tc main_v5) := W7_of_ne m ρ c main_v5 (by decide)
theorem keep2_v6 : W7 m ρ c (Proc.devRef .tc main_v6) = W6 m ρ c (Proc.devRef .tc main_v6) := W7_of_ne m ρ c main_v6 (by decide)
theorem keep2_v29 : W7 m ρ c (Proc.devRef .tc main_v29) = W6 m ρ c (Proc.devRef .tc main_v29) := W7_of_ne m ρ c main_v29 (by decide)
theorem keep2_arg5 : W7 m ρ c (Proc.devRef .tc main_arg5) = W6 m ρ c (Proc.devRef .tc main_arg5) := W7_of_ne m ρ c main_arg5 (by decide)
theorem keep2_arg6 : W7 m ρ c (Proc.devRef .tc main_arg6) = W6 m ρ c (Proc.devRef .tc main_arg6) := W7_of_ne m ρ c main_arg6 (by decide)
theorem keep2_arg7 : W7 m ρ c (Proc.devRef .tc main_arg7) = W6 m ρ c (Proc.devRef .tc main_arg7) := W7_of_ne m ρ c main_arg7 (by decide)

/-! ## After the first bias-and-clamp -/

theorem out1 : W6 m ρ c (Proc.devRef .tc main_v45)
    = biasClamp64 (W5 m ρ c (Proc.devRef .tc main_v43)) (W5 m ρ c (Proc.devRef .tc main_v44)) :=
  (W6_arr m ρ c 2).trans (final_r1 (V5 m ρ) c)
theorem keep1_arg4 : W6 m ρ c (Proc.devRef .tc main_arg4) = W5 m ρ c (Proc.devRef .tc main_arg4) := W6_of_ne m ρ c main_arg4 (by decide)
theorem keep1_v5 : W6 m ρ c (Proc.devRef .tc main_v5) = W5 m ρ c (Proc.devRef .tc main_v5) := W6_of_ne m ρ c main_v5 (by decide)
theorem keep1_v6 : W6 m ρ c (Proc.devRef .tc main_v6) = W5 m ρ c (Proc.devRef .tc main_v6) := W6_of_ne m ρ c main_v6 (by decide)
theorem keep1_v29 : W6 m ρ c (Proc.devRef .tc main_v29) = W5 m ρ c (Proc.devRef .tc main_v29) := W6_of_ne m ρ c main_v29 (by decide)
theorem keep1_arg5 : W6 m ρ c (Proc.devRef .tc main_arg5) = W5 m ρ c (Proc.devRef .tc main_arg5) := W6_of_ne m ρ c main_arg5 (by decide)
theorem keep1_arg6 : W6 m ρ c (Proc.devRef .tc main_arg6) = W5 m ρ c (Proc.devRef .tc main_arg6) := W6_of_ne m ρ c main_arg6 (by decide)
theorem keep1_arg7 : W6 m ρ c (Proc.devRef .tc main_arg7) = W5 m ρ c (Proc.devRef .tc main_arg7) := W6_of_ne m ρ c main_arg7 (by decide)

/-! ## After the first product -/

theorem out0 : W4 m ρ c (Proc.devRef .tc main_v30)
    = rowsTimes128 (W3 m ρ c (Proc.devRef .tc main_arg0)) (W3 m ρ c (Proc.devRef .tc main_arg2)) :=
  (W4_arr m ρ c 2).trans (final_r0 (V3 m ρ) c)
theorem keep0_v5 : W4 m ρ c (Proc.devRef .tc main_v5) = W3 m ρ c (Proc.devRef .tc main_v5) := W4_of_ne m ρ c main_v5 (by decide)
theorem keep0_v6 : W4 m ρ c (Proc.devRef .tc main_v6) = W3 m ρ c (Proc.devRef .tc main_v6) := W4_of_ne m ρ c main_v6 (by decide)
theorem keep0_v29 : W4 m ρ c (Proc.devRef .tc main_v29) = W3 m ρ c (Proc.devRef .tc main_v29) := W4_of_ne m ρ c main_v29 (by decide)
theorem keep0_arg3 : W4 m ρ c (Proc.devRef .tc main_arg3) = W3 m ρ c (Proc.devRef .tc main_arg3) := W4_of_ne m ρ c main_arg3 (by decide)
theorem keep0_arg4 : W4 m ρ c (Proc.devRef .tc main_arg4) = W3 m ρ c (Proc.devRef .tc main_arg4) := W4_of_ne m ρ c main_arg4 (by decide)
theorem keep0_arg5 : W4 m ρ c (Proc.devRef .tc main_arg5) = W3 m ρ c (Proc.devRef .tc main_arg5) := W4_of_ne m ρ c main_arg5 (by decide)
theorem keep0_arg6 : W4 m ρ c (Proc.devRef .tc main_arg6) = W3 m ρ c (Proc.devRef .tc main_arg6) := W4_of_ne m ρ c main_arg6 (by decide)
theorem keep0_arg7 : W4 m ρ c (Proc.devRef .tc main_arg7) = W3 m ρ c (Proc.devRef .tc main_arg7) := W4_of_ne m ρ c main_arg7 (by decide)

end Cert.KernelIdeal.Net

end
-- ==== Proof.RefLaws.lean ====
/-
  The reference's dense stages as the same index-by-index functions.

  On the extended reals the host's matrix product is the plain sum over the contracted axis, so it is the row-times-
  weights function of the specification; a bias row broadcast over all rows, added, and clamped below by the broadcast
  zero is the bias-and-clamp function; and the last product plus the broadcast bias entry is the last stage's function.
  A bias vector laid out as a one-row array is the same array whether it was reshaped or broadcast into that shape.
-/
import proofs.«138173_j47605417509207_1_alg».proof.ReferenceIdeal
import proofs.«138173_j47605417509207_1_alg».proof.Proof.Gen.ReferenceIdeal
import proofs.«138173_j47605417509207_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem Idealize.ShloMosaic.ValueIdx

namespace Cert.ReferenceIdeal.Net

open Cert.ReferenceIdeal Cert.ReferenceIdeal.Gen Cert.Gcn

/-! ## The three products -/

abbrev E1 : DotDims S100000x128 S128x64 S100000x64 := dot_S100000x128_S128x64_S100000x64_1_0_0_1_n_n
abbrev E2 : DotDims S100000x64 S64x32 S100000x32 := dot_S100000x64_S64x32_S100000x32_1_0_0_1_n_n
abbrev E3 : DotDims S100000x32 S32x1 S100000x1 := dot_S100000x32_S32x1_S100000x1_1_0_0_1_n_n

theorem e1_lhs0 (i : S100000x64.Idx) (q : E1.contr.Idx) : (E1.lhsIdx i q 0).val = (i 0).val := by
  unfold DotDims.lhsIdx
  rw [dif_neg (show ¬(0 : Fin S100000x128.rank) ∈ E1.lhsBatch by decide), dif_pos (show (0 : Fin S100000x128.rank) ∈ E1.lhsNonContracting by decide)]
  rfl
theorem e1_lhs1 (i : S100000x64.Idx) (q : E1.contr.Idx) : (E1.lhsIdx i q 1).val = (q ⟨0, by decide⟩).val :=
  E1.lhsIdx_val_of_single rfl i q
theorem e1_rhs0 (i : S100000x64.Idx) (q : E1.contr.Idx) : (E1.rhsIdx i q 0).val = (q ⟨0, by decide⟩).val :=
  E1.rhsIdx_val_of_single rfl i q
theorem e1_rhs1 (i : S100000x64.Idx) (q : E1.contr.Idx) : (E1.rhsIdx i q 1).val = (i 1).val := by
  unfold DotDims.rhsIdx
  rw [dif_neg (show ¬(1 : Fin S128x64.rank) ∈ E1.rhsBatch by decide), dif_pos (show (1 : Fin S128x64.rank) ∈ E1.rhsNonContracting by decide)]
  rfl

/-- The host's first product is rows times the 128 × 64 weights. -/
theorem product128 (x : FVec Ideal S100000x128 .f32) (w : FVec Ideal S128x64 .f32) :
    Host.dotGeneral (F := Ideal) E1 none x w = rowsTimes128 x w := by
  funext i
  obtain ⟨p, q, rfl⟩ : ∃ (p : Fin 100000) (q : Fin 64), i = ix2 p q := ⟨i 0, i 1, eq_ix2 i⟩
  simp only [Host.dotGeneral]
  rw [Ideal.dotGeneral_apply, ← Equiv.sum_comp (contrEquiv1 E1 128 rfl rfl).symm]
  unfold rowsTimes128
  refine Finset.sum_congr rfl fun k _ => ?_
  have hk := contrEquiv1_symm_val E1 128 rfl rfl k
  have el : E1.lhsIdx (ix2 p q) ((contrEquiv1 E1 128 rfl rfl).symm k) = ix2 p k := funext fun a => Fin.ext (by
    match a with
    | ⟨0, _⟩ => exact e1_lhs0 _ _
    | ⟨1, _⟩ => exact (e1_lhs1 _ _).trans hk)
  have er : E1.rhsIdx (ix2 p q) ((contrEquiv1 E1 128 rfl rfl).symm k) = ix2 k q := funext fun a => Fin.ext (by
    match a with
    | ⟨0, _⟩ => exact (e1_rhs0 _ _).trans hk
    | ⟨1, _⟩ => exact e1_rhs1 _ _)
  rw [el, er]

theorem e2_lhs0 (i : S100000x32.Idx) (q : E2.contr.Idx) : (E2.lhsIdx i q 0).val = (i 0).val := by
  unfold DotDims.lhsIdx
  rw [dif_neg (show ¬(0 : Fin S100000x64.rank) ∈ E2.lhsBatch by decide), dif_pos (show (0 : Fin S100000x64.rank) ∈ E2.lhsNonContracting by decide)]
  rfl
theorem e2_lhs1 (i : S100000x32.Idx) (q : E2.contr.Idx) : (E2.lhsIdx i q 1).val = (q ⟨0, by decide⟩).val :=
  E2.lhsIdx_val_of_single rfl i q
theorem e2_rhs0 (i : S100000x32.Idx) (q : E2.contr.Idx) : (E2.rhsIdx i q 0).val = (q ⟨0, by decide⟩).val :=
  E2.rhsIdx_val_of_single rfl i q
theorem e2_rhs1 (i : S100000x32.Idx) (q : E2.contr.Idx) : (E2.rhsIdx i q 1).val = (i 1).val := by
  unfold DotDims.rhsIdx
  rw [dif_neg (show ¬(1 : Fin S64x32.rank) ∈ E2.rhsBatch by decide), dif_pos (show (1 : Fin S64x32.rank) ∈ E2.rhsNonContracting by decide)]
  rfl

/-- The host's second product is rows times the 64 × 32 weights. -/
theorem product64 (h : FVec Ideal S100000x64 .f32) (w : FVec Ideal S64x32 .f32) :
    Host.dotGeneral (F := Ideal) E2 none h w = rowsTimes64 h w := by
  funext i
  obtain ⟨p, q, rfl⟩ : ∃ (p : Fin 100000) (q : Fin 32), i = ix2 p q := ⟨i 0, i 1, eq_ix2 i⟩
  simp only [Host.dotGeneral]
  rw [Ideal.dotGeneral_apply, ← Equiv.sum_comp (contrEquiv1 E2 64 rfl rfl).symm]
  unfold rowsTimes64
  refine Finset.sum_congr rfl fun k _ => ?_
  have hk := contrEquiv1_symm_val E2 64 rfl rfl k
  have el : E2.lhsIdx (ix2 p q) ((contrEquiv1 E2 64 rfl rfl).symm k) = ix2 p k := funext fun a => Fin.ext (by
    match a with
    | ⟨0, _⟩ => exact e2_lhs0 _ _
    | ⟨1, _⟩ => exact (e2_lhs1 _ _).trans hk)
  have er : E2.rhsIdx (ix2 p q) ((contrEquiv1 E2 64 rfl rfl).symm k) = ix2 k q := funext fun a => Fin.ext (by
    match a with
    | ⟨0, _⟩ => exact (e2_rhs0 _ _).trans hk
    | ⟨1, _⟩ => exact e2_rhs1 _ _)
  rw [el, er]

theorem e3_lhs0 (i : S100000x1.Idx) (q : E3.contr.Idx) : (E3.lhsIdx i q 0).val = (i 0).val := by
  unfold DotDims.lhsIdx
  rw [dif_neg (show ¬(0 : Fin S100000x32.rank) ∈ E3.lhsBatch by decide), dif_pos (show (0 : Fin S100000x32.rank) ∈ E3.lhsNonContracting by decide)]
  rfl
theorem e3_lhs1 (i : S100000x1.Idx) (q : E3.contr.Idx) : (E3.lhsIdx i q 1).val = (q ⟨0, by decide⟩).val :=
  E3.lhsIdx_val_of_single rfl i q
theorem e3_rhs0 (i : S100000x1.Idx) (q : E3.contr.Idx) : (E3.rhsIdx i q 0).val = (q ⟨0, by decide⟩).val :=
  E3.rhsIdx_val_of_single rfl i q
theorem e3_rhs1 (i : S100000x1.Idx) (q : E3.contr.Idx) : (E3.rhsIdx i q 1).val = (i 1).val := by
  unfold DotDims.rhsIdx
  rw [dif_neg (show ¬(1 : Fin S32x1.rank) ∈ E3.rhsBatch by decide), dif_pos (show (1 : Fin S32x1.rank) ∈ E3.rhsNonContracting by decide)]
  rfl

/-- The host's last product, plus the bias entry broadcast down the column, is the last stage's function. -/
theorem productPlus (h : FVec Ideal S100000x32 .f32) (w : FVec Ideal S32x1 .f32) (b : FVec Ideal S1x1 .f32) :
    addf (Host.dotGeneral (F := Ideal) E3 none h w) (broadcastInDim S100000x1 ![0, 1] bcast_S1x1_S100000x1_0_1 b)
      = rowsTimesPlus h w b := by
  funext i
  obtain ⟨p, q, rfl⟩ : ∃ (p : Fin 100000) (q : Fin 1), i = ix2 p q := ⟨i 0, i 1, eq_ix2 i⟩
  have hq : q = 0 := Fin.ext (by omega)
  subst hq
  show Host.dotGeneral (F := Ideal) E3 none h w (ix2 p 0) + broadcastInDim S100000x1 ![0, 1] bcast_S1x1_S100000x1_0_1 b (ix2 p 0) = _
  rw [broadcastInDim_apply _ bcast_S1x1_S100000x1_0_1 b (ix2 p (0 : Fin 1)) (ix2 (0 : Fin 1) (0 : Fin 1)) (fun a => match a with
    | ⟨0, _⟩ => by show 0 = if (1 : Nat) = 1 then 0 else p.val; rw [if_pos rfl]
    | ⟨1, _⟩ => by show 0 = if (1 : Nat) = 1 then 0 else 0; rw [if_pos rfl])]
  unfold rowsTimesPlus
  refine congrArg (fun z : EReal => z + b (ix2 (0 : Fin 1) (0 : Fin 1))) ?_
  simp only [Host.dotGeneral]
  rw [Ideal.dotGeneral_apply, ← Equiv.sum_comp (contrEquiv1 E3 32 rfl rfl).symm]
  refine Finset.sum_congr rfl fun k _ => ?_
  have hk := contrEquiv1_symm_val E3 32 rfl rfl k
  have el : E3.lhsIdx (ix2 p (0 : Fin 1)) ((contrEquiv1 E3 32 rfl rfl).symm k) = ix2 p k := funext fun a => Fin.ext (by
    match a with
    | ⟨0, _⟩ => exact e3_lhs0 _ _
    | ⟨1, _⟩ => exact (e3_lhs1 _ _).trans hk)
  have er : E3.rhsIdx (ix2 p (0 : Fin 1)) ((contrEquiv1 E3 32 rfl rfl).symm k) = ix2 k (0 : Fin 1) := funext fun a => Fin.ext (by
    match a with
    | ⟨0, _⟩ => exact (e3_rhs0 _ _).trans hk
    | ⟨1, _⟩ => exact e3_rhs1 _ _)
  rw [el, er]

/-! ## Bias and clamp -/

/-- A bias row broadcast over all rows, added, then clamped below by the broadcast zero (64 features). -/
theorem clamp64 (a : FVec Ideal S100000x64 .f32) (b : FVec Ideal S1x64 .f32) :
    maximumf (addf a (broadcastInDim S100000x64 ![0, 1] bcast_S1x64_S100000x64_0_1 b))
        (broadcastInDim S100000x64 ![] bcast_S_S100000x64 (constant (F := Ideal) S_ .f32 0x00000000#32))
      = biasClamp64 a b := by
  funext i
  obtain ⟨p, q, rfl⟩ : ∃ (p : Fin 100000) (q : Fin 64), i = ix2 p q := ⟨i 0, i 1, eq_ix2 i⟩
  show max (a (ix2 p q) + broadcastInDim S100000x64 ![0, 1] bcast_S1x64_S100000x64_0_1 b (ix2 p q))
      (broadcastInDim S100000x64 ![] bcast_S_S100000x64 (constant (F := Ideal) S_ .f32 0x00000000#32) (ix2 p q)) = _
  rw [broadcastInDim_apply _ bcast_S1x64_S100000x64_0_1 b (ix2 p q) (ix2 (0 : Fin 1) q) (fun a => match a with
    | ⟨0, _⟩ => by show 0 = if (1 : Nat) = 1 then 0 else p.val; rw [if_pos rfl]
    | ⟨1, _⟩ => by show q.val = if (64 : Nat) = 1 then 0 else q.val; rw [if_neg (by decide)]),
    broadcastInDim_apply _ bcast_S_S100000x64 (constant (F := Ideal) S_ .f32 0x00000000#32) (ix2 p q) ix0 (fun a => a.elim0)]
  rfl

/-- A bias row broadcast over all rows, added, then clamped below by the broadcast zero (32 features). -/
theorem clamp32 (a : FVec Ideal S100000x32 .f32) (b : FVec Ideal S1x32 .f32) :
    maximumf (addf a (broadcastInDim S100000x32 ![0, 1] bcast_S1x32_S100000x32_0_1 b))
        (broadcastInDim S100000x32 ![] bcast_S_S100000x32 (constant (F := Ideal) S_ .f32 0x00000000#32))
      = biasClamp32 a b := by
  funext i
  obtain ⟨p, q, rfl⟩ : ∃ (p : Fin 100000) (q : Fin 32), i = ix2 p q := ⟨i 0, i 1, eq_ix2 i⟩
  show max (a (ix2 p q) + broadcastInDim S100000x32 ![0, 1] bcast_S1x32_S100000x32_0_1 b (ix2 p q))
      (broadcastInDim S100000x32 ![] bcast_S_S100000x32 (constant (F := Ideal) S_ .f32 0x00000000#32) (ix2 p q)) = _
  rw [broadcastInDim_apply _ bcast_S1x32_S100000x32_0_1 b (ix2 p q) (ix2 (0 : Fin 1) q) (fun a => match a with
    | ⟨0, _⟩ => by show 0 = if (1 : Nat) = 1 then 0 else p.val; rw [if_pos rfl]
    | ⟨1, _⟩ => by show q.val = if (32 : Nat) = 1 then 0 else q.val; rw [if_neg (by decide)]),
    broadcastInDim_apply _ bcast_S_S100000x32 (constant (F := Ideal) S_ .f32 0x00000000#32) (ix2 p q) ix0 (fun a => a.elim0)]
  rfl

/-! ## A vector as a one-row array: reshaped or broadcast, the same array -/

theorem row_of_vector {n : Nat} (b : (⟨1, ![n]⟩ : Shape).Idx → EReal) (h : (⟨1, ![n]⟩ : Shape).ShapeCasts ⟨2, ![1, n]⟩)
    (h' : (⟨1, ![n]⟩ : Shape).BroadcastsInDim ⟨2, ![1, n]⟩ ![1]) :
    shapeCast ⟨2, ![1, n]⟩ b h = broadcastInDim ⟨2, ![1, n]⟩ ![1] h' b := by
  funext i
  obtain ⟨u, q, rfl⟩ : ∃ (u : Fin 1) (q : Fin n), i = ix2 u q := ⟨i 0, i 1, eq_ix2 i⟩
  rw [shapeCast_a_1a_apply, broadcastInDim_apply _ h' b (ix2 u q) (ix1 q) (fun a => match a with
    | ⟨0, _⟩ => by
      show q.val = if n = 1 then 0 else q.val
      split
      · have := q.isLt; omega
      · rfl)]

/-- The three bias vectors as one-row arrays. -/
theorem bias64_row (b : FVec Ideal S64 .f32) (h : S64.ShapeCasts S1x64) :
    shapeCast S1x64 b h = broadcastInDim S1x64 ![1] bcast_S64_S1x64_1 b := row_of_vector (n := 64) b h _
theorem bias32_row (b : FVec Ideal S32 .f32) (h : S32.ShapeCasts S1x32) :
    shapeCast S1x32 b h = broadcastInDim S1x32 ![1] bcast_S32_S1x32_1 b := row_of_vector (n := 32) b h _
theorem bias1_row (b : FVec Ideal S1 .f32) (h : S1.ShapeCasts S1x1) :
    shapeCast S1x1 b h = broadcastInDim S1x1 ![1] bcast_S1_S1x1_1 b := row_of_vector (n := 1) b h _

end Cert.ReferenceIdeal.Net

end
-- ==== Proof.RefNet.lean ====
/-
  The graph network as one function of its eight arguments.

  The edge list, with one self-loop per node appended, gives source and destination index vectors of length 1700000.
  A node's degree is the number of edges that end at it; an edge's weight is the product of the inverse square roots
  of its endpoints' degrees (zero where the degree is not positive).  An aggregation step gathers a feature row per
  edge by its source (a negative index counted from the end), scales it by the edge's weight, and sums the rows that
  share a destination.  The network is: rows times W1, aggregate, bias b1 and clamp; rows times W2, aggregate, bias b2
  and clamp; rows times Wfc plus bfc, laid out as a vector.  The reference program computes exactly this.
-/
import proofs.«138173_j47605417509207_1_alg».proof.Proof.RefRun
import proofs.«138173_j47605417509207_1_alg».proof.Proof.RefLaws

set_option maxRecDepth 16384

noncomputable section

open Idealize.ShloMosaic Idealize.ShloMosaic.TcCoe Idealize.SL.Sem

namespace Cert.ReferenceIdeal.Net

open Cert.ReferenceIdeal Cert.ReferenceIdeal.Gen Cert.Gcn

/-- Sources of the edges, then the nodes themselves (the self-loops). -/
def srcIdx (ei : IVec S2x1600000 32) : IVec S1700000 32 :=
  concatenate S1700000 0 [⟨S1600000, (shapeCast _ (extractStridedSlice S1x1600000 ![0, 0] ei slices_S2x1600000_S1x1600000_0_0) shapeCasts_S1x1600000_S1600000)⟩, ⟨S100000, (iotaInDim S100000 32 0)⟩] concatenates_S1600000_S100000_S1700000_d0

/-- Destinations of the edges, then the nodes themselves (the self-loops). -/
def dstIdx (ei : IVec S2x1600000 32) : IVec S1700000 32 :=
  concatenate S1700000 0 [⟨S1600000, (shapeCast _ (extractStridedSlice S1x1600000 ![1, 0] ei slices_S2x1600000_S1x1600000_1_0) shapeCasts_S1x1600000_S1600000)⟩, ⟨S100000, (iotaInDim S100000 32 0)⟩] concatenates_S1600000_S100000_S1700000_d0

/-- An index vector as gather indices: a negative index counts from the end. -/
def wrapIdx (v : IVec S1700000 32) : IVec S1700000x1 32 :=
  broadcastInDim S1700000x1 ![0] bcast_S1700000_S1700000x1_0 (select (cmpi .slt v (broadcastInDim S1700000 ![] bcast_S_S1700000 (constantI S_ 32 0#32))) (addi v (broadcastInDim S1700000 ![] bcast_S_S1700000 (constantI S_ 32 100000#32))) v)

/-- A node's degree: one for every edge that ends at it. -/
def degree (dst : IVec S1700000 32) : FVec Ideal S100000 .f32 :=
  Host.scatterAdd (F := Ideal) scatter_S100000_S1700000x1_S1700000_n_0_0_1 (broadcastInDim S100000 ![] bcast_S_S100000 (constant (F := Ideal) S_ .f32 0x00000000#32)) (broadcastInDim S1700000x1 ![0] bcast_S1700000_S1700000x1_0 dst) (broadcastInDim S1700000 ![] bcast_S_S1700000 (constant (F := Ideal) S_ .f32 0x3F800000#32))

/-- Whether a node's degree is positive. -/
def degPositive (dst : IVec S1700000 32) : IVec S100000 1 :=
  cmpf (F := Ideal) .ogt (degree dst) (broadcastInDim S100000 ![] bcast_S_S100000 (constant (F := Ideal) S_ .f32 0x00000000#32))

/-- The inverse square root of a node's degree. -/
def degInvSqrt (dst : IVec S1700000 32) : FVec Ideal S100000 .f32 := Host.rsqrt (F := Ideal) (degree dst)

/-- The zero scalar. -/
def zeroScalar : FVec Ideal S_ .f32 := constant (F := Ideal) S_ .f32 0x00000000#32

/-- Keep `r` where `cnd` holds, the scalar `z` elsewhere. -/
def whereElse (cnd : IVec S100000 1) (r : FVec Ideal S100000 .f32) (z : FVec Ideal S_ .f32) : FVec Ideal S100000 .f32 :=
  select cnd r (broadcastInDim S100000 ![] bcast_S_S100000 (id z))

/-- An edge's weight from the per-node factors: the product of the factors at its two endpoints. -/
def edgeNormOf (f : FVec Ideal S100000 .f32) (src dst : IVec S1700000 32) : FVec Ideal S1700000 .f32 :=
  mulf (Host.gather gather_S100000_S1700000x1_S1700000_n_0_n_n_0_1_1 f (wrapIdx src)) (Host.gather gather_S100000_S1700000x1_S1700000_n_0_n_n_0_1_1 f (wrapIdx dst))

/-- The inverse square root of the degree where it is positive, zero elsewhere. -/
def invSqrtDeg (dst : IVec S1700000 32) : FVec Ideal S100000 .f32 :=
  whereElse (degPositive dst) (degInvSqrt dst) zeroScalar

/-- An edge's weight: the product of its endpoints' inverse square root degrees. -/
def edgeNorm (src dst : IVec S1700000 32) : FVec Ideal S1700000 .f32 :=
  edgeNormOf (invSqrtDeg dst) src dst

/-- Aggregation of 64-feature rows along the edges. -/
def aggregate64 (src dst : IVec S1700000 32) (w : FVec Ideal S1700000 .f32) (h : FVec Ideal S100000x64 .f32) : FVec Ideal S100000x64 .f32 :=
  Host.scatterAdd (F := Ideal) scatter_S100000x64_S1700000x1_S1700000x64_1_0_0_1 (broadcastInDim S100000x64 ![] bcast_S_S100000x64 (constant (F := Ideal) S_ .f32 0x00000000#32)) (broadcastInDim S1700000x1 ![0] bcast_S1700000_S1700000x1_0 dst) (mulf (Host.gather gather_S100000x64_S1700000x1_S1700000x64_1_0_n_n_0_1_164 h (wrapIdx src)) (broadcastInDim S1700000x64 ![0, 1] bcast_S1700000x1_S1700000x64_0_1 (broadcastInDim S1700000x1 ![0] bcast_S1700000_S1700000x1_0 w)))

/-- Aggregation of 32-feature rows along the edges. -/
def aggregate32 (src dst : IVec S1700000 32) (w : FVec Ideal S1700000 .f32) (h : FVec Ideal S100000x32 .f32) : FVec Ideal S100000x32 .f32 :=
  Host.scatterAdd (F := Ideal) scatter_S100000x32_S1700000x1_S1700000x32_1_0_0_1 (broadcastInDim S100000x32 ![] bcast_S_S100000x32 (constant (F := Ideal) S_ .f32 0x00000000#32)) (broadcastInDim S1700000x1 ![0] bcast_S1700000_S1700000x1_0 dst) (mulf (Host.gather gather_S100000x32_S1700000x1_S1700000x32_1_0_n_n_0_1_132 h (wrapIdx src)) (broadcastInDim S1700000x32 ![0, 1] bcast_S1700000x1_S1700000x32_0_1 (broadcastInDim S1700000x1 ![0] bcast_S1700000_S1700000x1_0 w)))

/-- The network's result as a function of its arguments. -/
def network (x : FVec Ideal S100000x128 .f32) (ei : IVec S2x1600000 32) (w1 : FVec Ideal S128x64 .f32) (b1 : FVec Ideal S64 .f32)
    (w2 : FVec Ideal S64x32 .f32) (b2 : FVec Ideal S32 .f32) (wfc : FVec Ideal S32x1 .f32) (bfc : FVec Ideal S1 .f32) : FVec Ideal S100000 .f32 :=
  shapeCast S100000
    (rowsTimesPlus
      (biasClamp32
        (aggregate32 (srcIdx ei) (dstIdx ei) (edgeNorm (srcIdx ei) (dstIdx ei))
          (rowsTimes64
            (biasClamp64
              (aggregate64 (srcIdx ei) (dstIdx ei) (edgeNorm (srcIdx ei) (dstIdx ei)) (rowsTimes128 x w1))
              (broadcastInDim S1x64 ![1] bcast_S64_S1x64_1 b1))
            w2))
        (broadcastInDim S1x32 ![1] bcast_S32_S1x32_1 b2))
      wfc (broadcastInDim S1x1 ![1] bcast_S1_S1x1_1 bfc))
    shapeCasts_S100000x1_S100000

set_option maxHeartbeats 1000000 in
/-- The reference's result is the network of its arguments. -/
theorem reference_result (m : (ℓ : Loc nD τ sig) → Buf (Elt Ideal) ℓ) (c : Dev nD) :
    Cert.ReferenceIdeal.ValueP.res_main_v96 m c
      = network (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) := by
  unfold Cert.ReferenceIdeal.ValueP.res_main_v96
  rw [product128, clamp64, product64, clamp32, productPlus]
  rfl

end Cert.ReferenceIdeal.Net

end
-- ==== Proof.KHost.lean ====
/-
  The host stretches between the row-blocked regions, as the named steps of the network.

  Before the first region the host builds, from the edge list alone, the source and destination index vectors and the
  edge weights.  Between regions it aggregates the features along the edges, and lays a bias vector out as a one-row
  array.  After the last region it lays the one-column result out as a vector.  Every other buffer a stretch does not
  write keeps its contents.  Put together with what the regions leave, the result array is the network of the launch
  memory's arguments.
-/
import proofs.«138173_j47605417509207_1_alg».proof.Proof.KChain
import proofs.«138173_j47605417509207_1_alg».proof.Proof.RefNet
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Net

open Cert.KernelIdeal Cert.KernelIdeal.Gen Cert.Gcn

variable (m : (ℓ : Loc nD τ sig) → Buf (Elt Ideal) ℓ) (ρ : Dev nD → PrngReg) (c : Dev nD)

/-! ## Before the first region: the graph's index vectors and edge weights, and the arguments untouched -/

set_option maxHeartbeats 1000000 in
theorem base_v5 : W3 m ρ c (Proc.devRef .tc main_v5) = Cert.ReferenceIdeal.Net.srcIdx (m ((c.tc : Thread nD τ).loc main_arg1)) := by
  dsimp only [W3, W2, W1]
  after_results
  rfl

set_option maxHeartbeats 1000000 in
theorem base_v6 : W3 m ρ c (Proc.devRef .tc main_v6) = Cert.ReferenceIdeal.Net.dstIdx (m ((c.tc : Thread nD τ).loc main_arg1)) := by
  dsimp only [W3, W2, W1]
  after_results
  rfl

/-! The first stretch: the index vectors, the degrees' positivity and inverse square roots, the zero scalar. -/

set_option maxHeartbeats 1000000 in
theorem first_v5 : W1 m ρ c (Proc.devRef .tc main_v5) = Cert.ReferenceIdeal.Net.srcIdx (m ((c.tc : Thread nD τ).loc main_arg1)) := by
  dsimp only [W1]
  after_results
  rfl
set_option maxHeartbeats 1000000 in
theorem first_v6 : W1 m ρ c (Proc.devRef .tc main_v6) = Cert.ReferenceIdeal.Net.dstIdx (m ((c.tc : Thread nD τ).loc main_arg1)) := by
  dsimp only [W1]
  after_results
  rfl
set_option maxHeartbeats 1000000 in
theorem first_v12 : W1 m ρ c (Proc.devRef .tc main_v12) = Cert.ReferenceIdeal.Net.degPositive (Cert.ReferenceIdeal.Net.dstIdx (m ((c.tc : Thread nD τ).loc main_arg1))) := by
  dsimp only [W1]
  after_results
  rfl
set_option maxHeartbeats 1000000 in
theorem first_v13 : W1 m ρ c (Proc.devRef .tc main_v13) = Cert.ReferenceIdeal.Net.degInvSqrt (Cert.ReferenceIdeal.Net.dstIdx (m ((c.tc : Thread nD τ).loc main_arg1))) := by
  dsimp only [W1]
  after_results
  rfl
set_option maxHeartbeats 1000000 in
theorem first_cst : W1 m ρ c (Proc.devRef .tc main_cst_2) = Cert.ReferenceIdeal.Net.zeroScalar := by
  dsimp only [W1]
  after_results
  rfl

/-! The second stretch keeps the inverse square root where the degree is positive. -/

set_option maxHeartbeats 2000000 in
theorem second_v14 : W2 m ρ c (Proc.devRef .tc main_v14) = Cert.ReferenceIdeal.Net.whereElse (W1 m ρ c (Proc.devRef .tc main_v12)) (W1 m ρ c (Proc.devRef .tc main_v13)) (W1 m ρ c (Proc.devRef .tc main_cst_2)) := by
  show StableHlo.after hostOps0_1 (W1 m ρ c) (Proc.devRef .tc main_v14) = _
  generalize W1 m ρ c = Wp
  after_results
  rfl

set_option maxHeartbeats 2000000 in
theorem second_v5 : W2 m ρ c (Proc.devRef .tc main_v5) = W1 m ρ c (Proc.devRef .tc main_v5) := by
  show StableHlo.after hostOps0_1 (W1 m ρ c) (Proc.devRef .tc main_v5) = _
  generalize W1 m ρ c = Wp
  after_results

set_option maxHeartbeats 2000000 in
theorem second_v6 : W2 m ρ c (Proc.devRef .tc main_v6) = W1 m ρ c (Proc.devRef .tc main_v6) := by
  show StableHlo.after hostOps0_1 (W1 m ρ c) (Proc.devRef .tc main_v6) = _
  generalize W1 m ρ c = Wp
  after_results

/-! The third stretch multiplies the factors at each edge's endpoints. -/

set_option maxHeartbeats 2000000 in
theorem third_v29 : W3 m ρ c (Proc.devRef .tc main_v29) = Cert.ReferenceIdeal.Net.edgeNormOf (W2 m ρ c (Proc.devRef .tc main_v14)) (W2 m ρ c (Proc.devRef .tc main_v5)) (W2 m ρ c (Proc.devRef .tc main_v6)) := by
  show StableHlo.after hostOps0_2 (W2 m ρ c) (Proc.devRef .tc main_v29) = _
  generalize W2 m ρ c = Wp
  after_results
  rfl

theorem base_v29 : W3 m ρ c (Proc.devRef .tc main_v29)
    = Cert.ReferenceIdeal.Net.edgeNorm (Cert.ReferenceIdeal.Net.srcIdx (m ((c.tc : Thread nD τ).loc main_arg1))) (Cert.ReferenceIdeal.Net.dstIdx (m ((c.tc : Thread nD τ).loc main_arg1))) := by
  rw [third_v29 m ρ c, second_v14 m ρ c, second_v5 m ρ c, second_v6 m ρ c, first_v12 m ρ c, first_v13 m ρ c, first_cst m ρ c,
    first_v5 m ρ c, first_v6 m ρ c]
  rfl

theorem base_arg0 : W3 m ρ c (Proc.devRef .tc main_arg0) = m ((c.tc : Thread nD τ).loc main_arg0) := by
  dsimp only [W3, W2, W1]
  after_results
theorem base_arg2 : W3 m ρ c (Proc.devRef .tc main_arg2) = m ((c.tc : Thread nD τ).loc main_arg2) := by
  dsimp only [W3, W2, W1]
  after_results
theorem base_arg3 : W3 m ρ c (Proc.devRef .tc main_arg3) = m ((c.tc : Thread nD τ).loc main_arg3) := by
  dsimp only [W3, W2, W1]
  after_results
theorem base_arg4 : W3 m ρ c (Proc.devRef .tc main_arg4) = m ((c.tc : Thread nD τ).loc main_arg4) := by
  dsimp only [W3, W2, W1]
  after_results
theorem base_arg5 : W3 m ρ c (Proc.devRef .tc main_arg5) = m ((c.tc : Thread nD τ).loc main_arg5) := by
  dsimp only [W3, W2, W1]
  after_results
theorem base_arg6 : W3 m ρ c (Proc.devRef .tc main_arg6) = m ((c.tc : Thread nD τ).loc main_arg6) := by
  dsimp only [W3, W2, W1]
  after_results
theorem base_arg7 : W3 m ρ c (Proc.devRef .tc main_arg7) = m ((c.tc : Thread nD τ).loc main_arg7) := by
  dsimp only [W3, W2, W1]
  after_results

/-! ## Between the first product and the first bias-and-clamp -/

set_option maxHeartbeats 1000000 in
theorem host1_v43 : W5 m ρ c (Proc.devRef .tc main_v43)
    = Cert.ReferenceIdeal.Net.aggregate64 (W4 m ρ c (Proc.devRef .tc main_v5)) (W4 m ρ c (Proc.devRef .tc main_v6)) (W4 m ρ c (Proc.devRef .tc main_v29)) (W4 m ρ c (Proc.devRef .tc main_v30)) := by
  show StableHlo.after hostOps1 (W4 m ρ c) (Proc.devRef .tc main_v43) = _
  after_results
  rfl

set_option maxHeartbeats 1000000 in
theorem host1_v44 : W5 m ρ c (Proc.devRef .tc main_v44) = shapeCast S1x64 (W4 m ρ c (Proc.devRef .tc main_arg3)) shapeCasts_S64_S1x64 := by
  show StableHlo.after hostOps1 (W4 m ρ c) (Proc.devRef .tc main_v44) = _
  after_results
  rfl

set_option maxHeartbeats 1000000 in
theorem host1_arg4 : W5 m ρ c (Proc.devRef .tc main_arg4) = W4 m ρ c (Proc.devRef .tc main_arg4) := by
  show StableHlo.after hostOps1 (W4 m ρ c) (Proc.devRef .tc main_arg4) = _
  after_results
set_option maxHeartbeats 1000000 in
theorem host1_v5 : W5 m ρ c (Proc.devRef .tc main_v5) = W4 m ρ c (Proc.devRef .tc main_v5) := by
  show StableHlo.after hostOps1 (W4 m ρ c) (Proc.devRef .tc main_v5) = _
  after_results
set_option maxHeartbeats 1000000 in
theorem host1_v6 : W5 m ρ c (Proc.devRef .tc main_v6) = W4 m ρ c (Proc.devRef .tc main_v6) := by
  show StableHlo.after hostOps1 (W4 m ρ c) (Proc.devRef .tc main_v6) = _
  after_results
set_option maxHeartbeats 1000000 in
theorem host1_v29 : W5 m ρ c (Proc.devRef .tc main_v29) = W4 m ρ c (Proc.devRef .tc main_v29) := by
  show StableHlo.after hostOps1 (W4 m ρ c) (Proc.devRef .tc main_v29) = _
  after_results
set_option maxHeartbeats 1000000 in
theorem host1_arg5 : W5 m ρ c (Proc.devRef .tc main_arg5) = W4 m ρ c (Proc.devRef .tc main_arg5) := by
  show StableHlo.after hostOps1 (W4 m ρ c) (Proc.devRef .tc main_arg5) = _
  after_results
set_option maxHeartbeats 1000000 in
theorem host1_arg6 : W5 m ρ c (Proc.devRef .tc main_arg6) = W4 m ρ c (Proc.devRef .tc main_arg6) := by
  show StableHlo.after hostOps1 (W4 m ρ c) (Proc.devRef .tc main_arg6) = _
  after_results
set_option maxHeartbeats 1000000 in
theorem host1_arg7 : W5 m ρ c (Proc.devRef .tc main_arg7) = W4 m ρ c (Proc.devRef .tc main_arg7) := by
  show StableHlo.after hostOps1 (W4 m ρ c) (Proc.devRef .tc main_arg7) = _
  after_results

/-! ## Between the second product and the second bias-and-clamp -/

set_option maxHeartbeats 1000000 in
theorem host3_v59 : W8 m ρ c (Proc.devRef .tc main_v59)
    = Cert.ReferenceIdeal.Net.aggregate32 (W7 m ρ c (Proc.devRef .tc main_v5)) (W7 m ρ c (Proc.devRef .tc main_v6)) (W7 m ρ c (Proc.devRef .tc main_v29)) (W7 m ρ c (Proc.devRef .tc main_v46)) := by
  show StableHlo.after hostOps3 (W7 m ρ c) (Proc.devRef .tc main_v59) = _
  after_results
  rfl

set_option maxHeartbeats 1000000 in
theorem host3_v60 : W8 m ρ c (Proc.devRef .tc main_v60) = shapeCast S1x32 (W7 m ρ c (Proc.devRef .tc main_arg5)) shapeCasts_S32_S1x32 := by
  show StableHlo.after hostOps3 (W7 m ρ c) (Proc.devRef .tc main_v60) = _
  after_results
  rfl

set_option maxHeartbeats 1000000 in
theorem host3_arg6 : W8 m ρ c (Proc.devRef .tc main_arg6) = W7 m ρ c (Proc.devRef .tc main_arg6) := by
  show StableHlo.after hostOps3 (W7 m ρ c) (Proc.devRef .tc main_arg6) = _
  after_results
set_option maxHeartbeats 1000000 in
theorem host3_arg7 : W8 m ρ c (Proc.devRef .tc main_arg7) = W7 m ρ c (Proc.devRef .tc main_arg7) := by
  show StableHlo.after hostOps3 (W7 m ρ c) (Proc.devRef .tc main_arg7) = _
  after_results

/-! ## Before the last region -/

set_option maxHeartbeats 1000000 in
theorem host4_v62 : W10 m ρ c (Proc.devRef .tc main_v62) = shapeCast S1x1 (W9 m ρ c (Proc.devRef .tc main_arg7)) shapeCasts_S1_S1x1 := by
  show StableHlo.after hostOps4 (W9 m ρ c) (Proc.devRef .tc main_v62) = _
  after_results
  rfl

set_option maxHeartbeats 1000000 in
theorem host4_v61 : W10 m ρ c (Proc.devRef .tc main_v61) = W9 m ρ c (Proc.devRef .tc main_v61) := by
  show StableHlo.after hostOps4 (W9 m ρ c) (Proc.devRef .tc main_v61) = _
  after_results
set_option maxHeartbeats 1000000 in
theorem host4_arg6 : W10 m ρ c (Proc.devRef .tc main_arg6) = W9 m ρ c (Proc.devRef .tc main_arg6) := by
  show StableHlo.after hostOps4 (W9 m ρ c) (Proc.devRef .tc main_arg6) = _
  after_results

/-! ## After the last region -/

set_option maxHeartbeats 1000000 in
theorem host5_v64 : W12 m ρ c (Proc.devRef .tc main_v64) = shapeCast S100000 (W11 m ρ c (Proc.devRef .tc main_v63)) shapeCasts_S100000x1_S100000 := by
  show StableHlo.after hostOps5 (W11 m ρ c) (Proc.devRef .tc main_v64) = _
  after_results
  rfl

/-! ## The result array is the network of the launch memory's arguments -/

theorem kernel_result : W12 m ρ c (Proc.devRef .tc main_v64)
    = Cert.ReferenceIdeal.Net.network (m ((c.tc : Thread nD τ).loc main_arg0)) (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg5)) (m ((c.tc : Thread nD τ).loc main_arg6)) (m ((c.tc : Thread nD τ).loc main_arg7)) := by
  rw [host5_v64 m ρ c, out4 m ρ c, host4_v61 m ρ c, host4_arg6 m ρ c, host4_v62 m ρ c]
  rw [out3 m ρ c, keep3_arg6 m ρ c, keep3_arg7 m ρ c, host3_v59 m ρ c, host3_v60 m ρ c, host3_arg6 m ρ c, host3_arg7 m ρ c]
  rw [out2 m ρ c, keep2_v5 m ρ c, keep2_v6 m ρ c, keep2_v29 m ρ c, keep2_arg5 m ρ c, keep2_arg6 m ρ c, keep2_arg7 m ρ c]
  rw [out1 m ρ c, keep1_arg4 m ρ c, keep1_v5 m ρ c, keep1_v6 m ρ c, keep1_v29 m ρ c, keep1_arg5 m ρ c, keep1_arg6 m ρ c, keep1_arg7 m ρ c]
  rw [host1_v43 m ρ c, host1_v44 m ρ c, host1_arg4 m ρ c, host1_v5 m ρ c, host1_v6 m ρ c, host1_v29 m ρ c, host1_arg5 m ρ c, host1_arg6 m ρ c, host1_arg7 m ρ c]
  rw [out0 m ρ c, keep0_v5 m ρ c, keep0_v6 m ρ c, keep0_v29 m ρ c, keep0_arg3 m ρ c, keep0_arg4 m ρ c, keep0_arg5 m ρ c, keep0_arg6 m ρ c, keep0_arg7 m ρ c]
  rw [base_v5 m ρ c, base_v6 m ρ c, base_v29 m ρ c, base_arg0 m ρ c, base_arg2 m ρ c, base_arg3 m ρ c, base_arg4 m ρ c, base_arg5 m ρ c, base_arg6 m ρ c, base_arg7 m ρ c]
  rw [Cert.ReferenceIdeal.Net.bias64_row, Cert.ReferenceIdeal.Net.bias32_row, Cert.ReferenceIdeal.Net.bias1_row]
  rfl

end Cert.KernelIdeal.Net

end
-- ==== Proof.lean ====
/-
  The two-layer graph network, row-blocked against plain.

  Both programs compute, on the extended reals, the same function of their eight arguments: rows of x times W1,
  aggregated along the edges (each edge weighted by the inverse square roots of its endpoints' degrees, self-loops
  included), plus the bias b1 and clamped below at zero; then the same with W2 and b2; then rows times Wfc plus bfc, laid
  out as a vector.  One program does the three products and the two bias-and-clamp steps ten thousand rows at a time,
  rounding the product's operands to a shorter format on the way in (which changes nothing on the extended reals) and
  accumulating from zero; the other does each as one whole-array operation.  A finite sum of extended reals does not
  depend on how its terms are grouped, so each dense stage is the same array either way, entry by entry; the
  aggregation steps in between are the same host operations applied to those arrays.  No law used needs finite inputs.

  The frames of the two row-blocked programs are the generated ones; the plain program's frame is its run with the
  result dropped; nothing was rewritten on the way to the extended reals, so there is nothing to preserve.
-/
import proofs.«138173_j47605417509207_1_alg».proof.Defs
import proofs.«138173_j47605417509207_1_alg».proof.Proof.Gen.Kernel
import proofs.«138173_j47605417509207_1_alg».proof.Proof.Gen.Kernel.Skeleton
import proofs.«138173_j47605417509207_1_alg».proof.Proof.Gen.Kernel.Launch
import proofs.«138173_j47605417509207_1_alg».proof.Proof.Gen.Kernel.Points
import proofs.«138173_j47605417509207_1_alg».proof.Proof.Gen.Kernel.Frame
import proofs.«138173_j47605417509207_1_alg».proof.Proof.Gen.KernelIdeal
import proofs.«138173_j47605417509207_1_alg».proof.Proof.Gen.KernelIdeal.Skeleton
import proofs.«138173_j47605417509207_1_alg».proof.Proof.Gen.KernelIdeal.Launch
import proofs.«138173_j47605417509207_1_alg».proof.Proof.Gen.KernelIdeal.Points
import proofs.«138173_j47605417509207_1_alg».proof.Proof.Gen.KernelIdeal.Frame
import proofs.«138173_j47605417509207_1_alg».proof.Proof.Gen.ReferenceIdeal
import proofs.«138173_j47605417509207_1_alg».proof.Proof.Gen.Pre_finite_inputs
import proofs.«138173_j47605417509207_1_alg».proof.Proof.KRun
import proofs.«138173_j47605417509207_1_alg».proof.Proof.KHost
import proofs.«138173_j47605417509207_1_alg».proof.Proof.RefRun
import proofs.«138173_j47605417509207_1_alg».proof.Proof.RefNet
import Idealize.ShloMosaic.Adequacy
import Idealize.ShloMosaic.Init

noncomputable section

namespace Cert.Proof

open Idealize.ShloMosaic Idealize.SL.Sem

/-- The plain program runs and leaves its arguments alone: its run, the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- From memories that agree on the arguments both programs end with the network of those arguments in the result. -/
theorem algebraic : Cert.algebraic_KernelIdeal_ReferenceIdeal := by
  intro m ρ m' ρ' _ hagree
  refine ⟨fun c => Cert.KernelIdeal.Gen.W12 m ρ c (Proc.devRef .tc Cert.KernelIdeal.main_v64), Cert.KernelIdeal.Net.run_result m ρ, ?_⟩
  refine (θ_run Cert.ReferenceIdeal.defs _ _).mono (fun _ h c => ⟨(h c).1.trans ?_, (h c).2⟩)
    (Cert.ReferenceIdeal.ValueP.run (F := Ideal) m' ρ')
  obtain ⟨a0, a1, a2, a3, a4, a5, a6, a7⟩ := hagree c
  show Cert.ReferenceIdeal.ValueP.res_main_v96 m' c = Cert.KernelIdeal.Gen.W12 m ρ c (Proc.devRef .tc Cert.KernelIdeal.main_v64)
  rw [Cert.ReferenceIdeal.Net.reference_result m' c, Cert.KernelIdeal.Net.kernel_result m ρ c, a0, a1, a2, a3, a4, a5, a6, a7]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_reference,
  trivial,
  algebraic⟩

end Cert.Proof

end
